-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x100 : Shape := ⟨2, ![50000, 100]⟩
abbrev S2x800000 : Shape := ⟨2, ![2, 800000]⟩
abbrev S50000 : Shape := ⟨1, ![50000]⟩
abbrev S100x128 : Shape := ⟨2, ![100, 128]⟩
abbrev S128 : Shape := ⟨1, ![128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S3x128 .f32) (main_arg7 : FVec F S128x1 .f32) (main_arg8 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x100 .f32) (main_arg1 : IVec S2x800000 32) (main_arg2 : IVec S50000 32) (main_arg3 : FVec F S100x128 .f32) (main_arg4 : FVec F S128 .f32) (main_arg5 : FVec F S3x128x128 .f32) (main_arg6 : FVec F S3x128 .f32) (main_arg7 : FVec F S128x1 .f32) (main_arg8 : FVec F S1 .f32) : IVec S_ 1 :=
  let main_v0 : FVec F S50000x100 .f32 := Host.absf main_arg0
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S100x128 .f32 := Host.absf main_arg3
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_v13 main_v16
-- ==== Kernel.lean ====
abbrev S50000x100 : Shape := ⟨2, ![50000, 100]⟩
abbrev S2x800000 : Shape := ⟨2, ![2, 800000]⟩
abbrev S50000 : Shape := ⟨1, ![50000]⟩
abbrev S100x128 : Shape := ⟨2, ![100, 128]⟩
abbrev S128 : Shape := ⟨1, ![128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S50000x128 : Shape := ⟨2, ![50000, 128]⟩
abbrev S5000x100 : Shape := ⟨2, ![5000, 100]⟩
abbrev S5000x128 : Shape := ⟨2, ![5000, 128]⟩
abbrev S1x128 : Shape := ⟨2, ![1, 128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S128x128 : Shape := ⟨2, ![128, 128]⟩
abbrev S850000x128 : Shape := ⟨2, ![850000, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S1x1 : Shape := ⟨2, ![1, 1]⟩

abbrev nBuf : Space → Nat
  | .hbm => 136
  | .vmem => 36
  | .smem => 0
  | _ => 0

abbrev hbmTy0_0 (i : Nat) : BufTy := match i % 128 with
  | 0 => ⟨S50000x100, .f32⟩
  | 1 => ⟨S2x800000, .i32⟩
  | 2 => ⟨S50000, .i32⟩
  | 3 => ⟨S100x128, .f32⟩
  | 4 => ⟨S128, .f32⟩
  | 5 => ⟨S3x128x128, .f32⟩
  | 6 => ⟨S3x128, .f32⟩
  | 7 => ⟨S128x1, .f32⟩
  | 8 => ⟨S1, .f32⟩
  | 9 => ⟨S50000x128, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S1x128x128, .f32⟩
  | 51 => ⟨S128x128, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S128, .f32⟩
  | 71 => ⟨S50000x128, .f32⟩
  | 72 => ⟨S1x128x128, .f32⟩
  | 73 => ⟨S128x128, .f32⟩
  | 74 => ⟨S50000x128, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x128, .f32⟩
  | 84 => ⟨S850000x1, .f32⟩
  | 85 => ⟨S850000x128, .f32⟩
  | 86 => ⟨S850000x128, .f32⟩
  | 87 => ⟨S_, .f32⟩
  | 88 => ⟨S50000x128, .f32⟩
  | 89 => ⟨S850000x1, .i32⟩
  | 90 => ⟨S50000x128, .f32⟩
  | 91 => ⟨S1x128, .f32⟩
  | 92 => ⟨S128, .f32⟩
  | 93 => ⟨S50000x128, .f32⟩
  | 94 => ⟨S1x128x128, .f32⟩
  | 95 => ⟨S128x128, .f32⟩
  | 96 => ⟨S50000x128, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x128, .f32⟩
  | 106 => ⟨S850000x1, .f32⟩
  | 107 => ⟨S850000x128, .f32⟩
  | 108 => ⟨S850000x128, .f32⟩
  | 109 => ⟨S_, .f32⟩
  | 110 => ⟨S50000x128, .f32⟩
  | 111 => ⟨S850000x1, .i32⟩
  | 112 => ⟨S50000x128, .f32⟩
  | 113 => ⟨S1x128, .f32⟩
  | 114 => ⟨S128, .f32⟩
  | 115 => ⟨S50000x128, .f32⟩
  | 116 => ⟨S_, .f32⟩
  | 117 => ⟨S64x128, .f32⟩
  | 118 => ⟨S50000x1, .i32⟩
  | 119 => ⟨S64x128, .f32⟩
  | 120 => ⟨S_, .f32⟩
  | 121 => ⟨S50000, .f32⟩
  | 122 => ⟨S_, .f32⟩
  | 123 => ⟨S64, .f32⟩
  | 124 => ⟨S50000x1, .i32⟩
  | 125 => ⟨S64, .f32⟩
  | 126 => ⟨S_, .f32⟩
  | 127 => ⟨S64, .f32⟩
  | _ => ⟨S50000x100, .f32⟩

abbrev hbmTy0_1 (i : Nat) : BufTy := match i % 128 with
  | 0 => ⟨S64, .f32⟩
  | 1 => ⟨S64x1, .f32⟩
  | 2 => ⟨S64x128, .f32⟩
  | 3 => ⟨S64x128, .f32⟩
  | 4 => ⟨S64x1, .f32⟩
  | 5 => ⟨S1x1, .f32⟩
  | 6 => ⟨S64x1, .f32⟩
  | 7 => ⟨S64x1, .f32⟩
  | _ => ⟨S50000x100, .f32⟩

abbrev hbmTy (i : Nat) : BufTy := match i / 128 with
  | 0 => hbmTy0_0 i
  | 1 => hbmTy0_1 i
  | _ => ⟨S50000x100, .f32⟩

abbrev bufTy : (tb : Table) → Fin (tcTables nBuf tb) → BufTy
  | .hbm, ⟨i, _⟩ => hbmTy i
  | .local _ .vmem, ⟨0, _⟩ => ⟨S5000x100, .f32⟩
  | .local _ .vmem, ⟨1, _⟩ => ⟨S5000x100, .f32⟩
  | .local _ .vmem, ⟨2, _⟩ => ⟨S100x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | _, _ => ⟨S50000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_9 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_12 : Ref sig .tc := ⟨.hbm, 97, rfl⟩
abbrev main_v72 : Ref sig .tc := ⟨.hbm, 98, rfl⟩
abbrev main_v73 : Ref sig .tc := ⟨.hbm, 99, rfl⟩
abbrev main_c_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_14 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_15 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_16 : Ref sig .tc := ⟨.hbm, 120, rfl⟩
abbrev main_v91 : Ref sig .tc := ⟨.hbm, 121, rfl⟩
abbrev main_cst_17 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_18 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem2_0 : DmaSem sig := 34
abbrev cc6_sem2_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  inb_S5000x100_S5000x100_0_0 : ∀ a, (![0, 0] : Fin 2 → Nat) a + S5000x100.size a ≤ S5000x100.size a
  h_S5000x100 : 0 < S5000x100.numel
  bitsLt_bf16_f32 : FTy.bits .bf16 < FTy.bits .f32
  inb_S100x128_S100x128_0_0 : ∀ a, (![0, 0] : Fin 2 → Nat) a + S100x128.size a ≤ S100x128.size a
  h_S100x128 : 0 < S100x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  shapeCasts_S128_S128 : S128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S5000x100_S100x128_S5000x128_1_0_0_1_n_n_wf : DotDims.WF S5000x100 S100x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S50000x100.size a
  hwx0_0 : ∀ i : grid0.Coords, EltTy.bits .f32 = 32 ∨ (Rect.block (s := S50000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x128.size a ≤ S100x128.size a
  hwx0_1 : ∀ i : grid0.Coords, EltTy.bits .f32 = 32 ∨ (Rect.block (s := S100x128) S100x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128.size a ≤ S128.size a
  hwx6_1 : ∀ i : grid6.Coords, EltTy.bits .f32 = 32 ∨ (Rect.block (s := S128) S128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)

variable [Facts₀]

def dot_S5000x100_S100x128_S5000x128_1_0_0_1_n_n : DotDims S5000x100 S100x128 S5000x128 where
  lhsContracting := [1]
  rhsContracting := [0]
  lhsNonContracting := [0]
  rhsNonContracting := [1]
  lhsBatch := []
  rhsBatch := []
  wf := dot_S5000x100_S100x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S100x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v68) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v71) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v84) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v86) S128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S50000x100 : Shape := ⟨2, ![50000, 100]⟩
abbrev S2x800000 : Shape := ⟨2, ![2, 800000]⟩
abbrev S50000 : Shape := ⟨1, ![50000]⟩
abbrev S100x128 : Shape := ⟨2, ![100, 128]⟩
abbrev S128 : Shape := ⟨1, ![128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S50000x128 : Shape := ⟨2, ![50000, 128]⟩
abbrev S1x128 : Shape := ⟨2, ![1, 128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S128x128 : Shape := ⟨2, ![128, 128]⟩
abbrev S850000x128 : Shape := ⟨2, ![850000, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S1x1 : Shape := ⟨2, ![1, 1]⟩

abbrev nBuf : Space → Nat
  | .hbm => 154
  | .vmem => 0
  | .smem => 0
  | _ => 0

abbrev hbmTy0_0 (i : Nat) : BufTy := match i % 128 with
  | 0 => ⟨S50000x100, .f32⟩
  | 1 => ⟨S2x800000, .i32⟩
  | 2 => ⟨S50000, .i32⟩
  | 3 => ⟨S100x128, .f32⟩
  | 4 => ⟨S128, .f32⟩
  | 5 => ⟨S3x128x128, .f32⟩
  | 6 => ⟨S3x128, .f32⟩
  | 7 => ⟨S128x1, .f32⟩
  | 8 => ⟨S1, .f32⟩
  | 9 => ⟨S50000x128, .f32⟩
  | 10 => ⟨S1x128, .f32⟩
  | 11 => ⟨S50000x128, .f32⟩
  | 12 => ⟨S50000x128, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S1x128x128, .f32⟩
  | 54 => ⟨S128x128, .f32⟩
  | 55 => ⟨S50000x128, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x1, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S1x128x128, .f32⟩
  | 81 => ⟨S128x128, .f32⟩
  | 82 => ⟨S50000x128, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000x128, .f32⟩
  | 92 => ⟨S850000x1, .f32⟩
  | 93 => ⟨S850000x128, .f32⟩
  | 94 => ⟨S850000x128, .f32⟩
  | 95 => ⟨S_, .f32⟩
  | 96 => ⟨S50000x128, .f32⟩
  | 97 => ⟨S850000x1, .i32⟩
  | 98 => ⟨S50000x128, .f32⟩
  | 99 => ⟨S1x128, .f32⟩
  | 100 => ⟨S128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S1x128x128, .f32⟩
  | 108 => ⟨S128x128, .f32⟩
  | 109 => ⟨S50000x128, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x128, .f32⟩
  | 119 => ⟨S850000x1, .f32⟩
  | 120 => ⟨S850000x128, .f32⟩
  | 121 => ⟨S850000x128, .f32⟩
  | 122 => ⟨S_, .f32⟩
  | 123 => ⟨S50000x128, .f32⟩
  | 124 => ⟨S850000x1, .i32⟩
  | 125 => ⟨S50000x128, .f32⟩
  | 126 => ⟨S1x128, .f32⟩
  | 127 => ⟨S128, .f32⟩
  | _ => ⟨S50000x100, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S_, .f32⟩
  | 7 => ⟨S64x128, .f32⟩
  | 8 => ⟨S50000x1, .i32⟩
  | 9 => ⟨S64x128, .f32⟩
  | 10 => ⟨S_, .f32⟩
  | 11 => ⟨S50000, .f32⟩
  | 12 => ⟨S_, .f32⟩
  | 13 => ⟨S64, .f32⟩
  | 14 => ⟨S50000x1, .i32⟩
  | 15 => ⟨S64, .f32⟩
  | 16 => ⟨S_, .f32⟩
  | 17 => ⟨S64, .f32⟩
  | 18 => ⟨S64, .f32⟩
  | 19 => ⟨S64x1, .f32⟩
  | 20 => ⟨S64x128, .f32⟩
  | 21 => ⟨S64x128, .f32⟩
  | 22 => ⟨S64x1, .f32⟩
  | 23 => ⟨S1x1, .f32⟩
  | 24 => ⟨S64x1, .f32⟩
  | 25 => ⟨S64x1, .f32⟩
  | _ => ⟨S50000x100, .f32⟩

abbrev hbmTy (i : Nat) : BufTy := match i / 128 with
  | 0 => hbmTy0_0 i
  | 1 => hbmTy0_1 i
  | _ => ⟨S50000x100, .f32⟩

abbrev bufTy : (tb : Table) → Fin (tcTables nBuf tb) → BufTy
  | .hbm, ⟨i, _⟩ => hbmTy i
  | _, _ => ⟨S50000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_c_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_11 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call2_cst : Ref sig .tc := ⟨.hbm, 104, rfl⟩
abbrev main_call2_v0 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_12 : Ref sig .tc := ⟨.hbm, 110, rfl⟩
abbrev main_v81 : Ref sig .tc := ⟨.hbm, 111, rfl⟩
abbrev main_v82 : Ref sig .tc := ⟨.hbm, 112, rfl⟩
abbrev main_c_13 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_14 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_call3_cst : Ref sig .tc := ⟨.hbm, 131, rfl⟩
abbrev main_call3_v0 : Ref sig .tc := ⟨.hbm, 132, rfl⟩
abbrev main_v99 : Ref sig .tc := ⟨.hbm, 133, rfl⟩
abbrev main_cst_15 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_16 : Ref sig .tc := ⟨.hbm, 138, rfl⟩
abbrev main_v103 : Ref sig .tc := ⟨.hbm, 139, rfl⟩
abbrev main_cst_17 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_18 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S3x128x128_S1x128x128_0_0_0 : S3x128x128.Slices ![0, 0, 0] S1x128x128
  shapeCasts_S1x128x128_S128x128 : S1x128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S50000x100_S100x128_S50000x128_1_0_0_1_n_n_wf : DotDims.WF S50000x100 S100x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x1_S64x1_1_0_0_1_n_n_wf : DotDims.WF S64x128 S128x1 S64x1 [1] [0] [0] [1] [] []

variable [Facts₀]

def dot_S50000x100_S100x128_S50000x128_1_0_0_1_n_n : DotDims S50000x100 S100x128 S50000x128 where
  lhsContracting := [1]
  rhsContracting := [0]
  lhsNonContracting := [0]
  rhsNonContracting := [1]
  lhsBatch := []
  rhsBatch := []
  wf := dot_S50000x100_S100x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.Spec.lean ====
/-
  The network both programs compute, as one function of the nine argument arrays.

  A graph of 50000 nodes and 800000 directed edges. Every node gets a self loop, so there are 850000 edges with
  sources `src` and destinations `dst`. A node's degree counts the edges that arrive at it; an edge (s, d) carries
  the weight `norm = deg(s)^(-1/2) * deg(d)^(-1/2)` (zero where a degree is not positive). The features are
  encoded by one affine map, `encode x W b = x W + b`; each of three layers multiplies them by a 128 x 128 matrix
  (`linear`), sends every node's row along its outgoing edges scaled by the edge's weight and adds what arrives
  at each node (`aggregate`), adds a bias and keeps the positive part (`activate`). The head sums the rows of the
  nodes of each of 64 graphs, divides by the number of nodes of the graph (at least one), multiplies by a column
  and adds a constant (`readout`).

  Each piece is written with the host operations of the reference program, in its order, so that the reference's
  composed result term unfolds to `network` of the argument arrays.
-/
import proofs.«102854_j58385785422144_1_alg».proof.ReferenceIdeal
import proofs.«102854_j58385785422144_1_alg».proof.Proof.Gen.ReferenceIdeal

noncomputable section

namespace Cert.Spec

open Cert.ReferenceIdeal Cert.ReferenceIdeal.Facts₀ Cert.ReferenceIdeal.Facts Idealize.ShloMosaic Idealize.ShloMosaic.TcCoe

variable {F : FTy → Type} [FloatOps F]

/-- The edges' sources: row 0 of the edge list, then the node numbers 0 … 49999 (the self loops). -/
def endpoints0 (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The edges' destinations: row 1 of the edge list, then the self loops. -/
def endpoints1 (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node number used as a row index: a negative one counts from the end (50000 is added), and the list becomes
    a column of one-entry index vectors. -/
def asRows (i : (⟨S850000, .i32⟩ : BufTy).Contents (Elt F)) : (⟨S850000x1, .i32⟩ : BufTy).Contents (Elt F) :=
  broadcastInDim S850000x1 ![0] bcast_S850000_S850000x1_0 (select (cmpi .slt i (broadcastInDim S850000 ![] bcast_S_S850000 (constantI S_ 32 0#32))) (addi i (broadcastInDim S850000 ![] bcast_S_S850000 (constantI S_ 32 50000#32))) i)

/-- The number of edges arriving at each node: ones added up by destination. -/
def degree (e : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (endpoints1 e)) (broadcastInDim S850000 ![] bcast_S_S850000 (constant S_ .f32 0x3F800000#32))

/-- `deg^(-1/2)` where the degree is positive, zero elsewhere. -/
def invSqrtDegree (e : (⟨S2x800000, .i32⟩ : BufTy).Contents (Elt F)) : (⟨S50000, .f32⟩ : BufTy).Contents (Elt F) :=
  select (cmpf (F := F) .ogt (degree e) (broadcastInDim S50000 ![] bcast_S_S50000 (constant S_ .f32 0x00000000#32))) (Host.rsqrt (degree e)) (broadcastInDim S50000 ![] bcast_S_S50000 (id (constant S_ .f32 0x00000000#32)))

/-- The weight of each edge: the product of the two end nodes' `deg^(-1/2)`. -/
def edgeWeight (e : (⟨S2x800000, .i32⟩ : BufTy).Contents (Elt F)) : (⟨S850000, .f32⟩ : BufTy).Contents (Elt F) :=
  mulf (Host.gather gather_S50000_S850000x1_S850000_n_0_n_n_0_1_1 (invSqrtDegree e) (asRows (endpoints0 e))) (Host.gather gather_S50000_S850000x1_S850000_n_0_n_n_0_1_1 (invSqrtDegree e) (asRows (endpoints1 e)))

/-- The encoder: `x W + b`, the bias along every row. -/
def encode (x : (⟨S50000x100, .f32⟩ : BufTy).Contents (Elt F)) (W : (⟨S100x128, .f32⟩ : BufTy).Contents (Elt F)) (b : (⟨S128, .f32⟩ : BufTy).Contents (Elt F)) : (⟨S50000x128, .f32⟩ : BufTy).Contents (Elt F) :=
  addf (Host.dotGeneral dot_S50000x100_S100x128_S50000x128_1_0_0_1_n_n none x W) (broadcastInDim S50000x128 ![0, 1] bcast_S1x128_S50000x128_0_1 (broadcastInDim S1x128 ![1] bcast_S128_S1x128_1 b))

/-- A layer's matrix product `h W`. -/
def linear (h : (⟨S50000x128, .f32⟩ : BufTy).Contents (Elt F)) (W : (⟨S128x128, .f32⟩ : BufTy).Contents (Elt F)) : (⟨S50000x128, .f32⟩ : BufTy).Contents (Elt F) :=
  Host.dotGeneral dot_S50000x128_S128x128_S50000x128_1_0_0_1_n_n none h W

/-- Message passing over given edge arrays: edge j carries row `s j` of `hw` times the weight `w j`; node n receives
    the sum of what the edges with `d j = n` carry. -/
def spread (s d : (⟨S850000, .i32⟩ : BufTy).Contents (Elt F)) (w : (⟨S850000, .f32⟩ : BufTy).Contents (Elt F)) (hw : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 d) (mulf (Host.gather gather_S50000x128_S850000x1_S850000x128_1_0_n_n_0_1_1128 hw (asRows s)) (broadcastInDim S850000x128 ![0, 1] bcast_S850000x1_S850000x128_0_1 (broadcastInDim S850000x1 ![0] bcast_S850000_S850000x1_0 w)))

/-- Message passing over the graph's edges: sources, destinations and weights from the edge list. -/
def aggregate (e : (⟨S2x800000, .i32⟩ : BufTy).Contents (Elt F)) (hw : (⟨S50000x128, .f32⟩ : BufTy).Contents (Elt F)) : (⟨S50000x128, .f32⟩ : BufTy).Contents (Elt F) :=
  spread (endpoints0 e) (endpoints1 e) (edgeWeight e) hw

/-- Bias along every row, then the positive part. -/
def activate (a : (⟨S50000x128, .f32⟩ : BufTy).Contents (Elt F)) (b : (⟨S128, .f32⟩ : BufTy).Contents (Elt F)) : (⟨S50000x128, .f32⟩ : BufTy).Contents (Elt F) :=
  maximumf (addf a (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- Layer `l`'s weight matrix out of the stack of three. -/
def weight0 (g : (⟨S3x128x128, .f32⟩ : BufTy).Contents (Elt F)) : (⟨S128x128, .f32⟩ : BufTy).Contents (Elt F) := shapeCast _ (extractStridedSlice S1x128x128 ![0, 0, 0] g slices_S3x128x128_S1x128x128_0_0_0) shapeCasts_S1x128x128_S128x128
def weight1 (g : (⟨S3x128x128, .f32⟩ : BufTy).Contents (Elt F)) : (⟨S128x128, .f32⟩ : BufTy).Contents (Elt F) := shapeCast _ (extractStridedSlice S1x128x128 ![1, 0, 0] g slices_S3x128x128_S1x128x128_1_0_0) shapeCasts_S1x128x128_S128x128
def weight2 (g : (⟨S3x128x128, .f32⟩ : BufTy).Contents (Elt F)) : (⟨S128x128, .f32⟩ : BufTy).Contents (Elt F) := shapeCast _ (extractStridedSlice S1x128x128 ![2, 0, 0] g slices_S3x128x128_S1x128x128_2_0_0) shapeCasts_S1x128x128_S128x128

/-- Layer `l`'s bias row out of the stack of three. -/
def bias0 (g : (⟨S3x128, .f32⟩ : BufTy).Contents (Elt F)) : (⟨S128, .f32⟩ : BufTy).Contents (Elt F) := shapeCast _ (extractStridedSlice S1x128 ![0, 0] g slices_S3x128_S1x128_0_0) shapeCasts_S1x128_S128
def bias1 (g : (⟨S3x128, .f32⟩ : BufTy).Contents (Elt F)) : (⟨S128, .f32⟩ : BufTy).Contents (Elt F) := shapeCast _ (extractStridedSlice S1x128 ![1, 0] g slices_S3x128_S1x128_1_0) shapeCasts_S1x128_S128
def bias2 (g : (⟨S3x128, .f32⟩ : BufTy).Contents (Elt F)) : (⟨S128, .f32⟩ : BufTy).Contents (Elt F) := shapeCast _ (extractStridedSlice S1x128 ![2, 0] g slices_S3x128_S1x128_2_0) shapeCasts_S1x128_S128

/-- The head: each graph's rows summed and divided by the graph's number of nodes (at least one), times a column,
    plus a constant. -/
def readout (batch : (⟨S50000, .i32⟩ : BufTy).Contents (Elt F)) (h : (⟨S50000x128, .f32⟩ : BufTy).Contents (Elt F)) (Wr : (⟨S128x1, .f32⟩ : BufTy).Contents (Elt F)) (br : (⟨S1, .f32⟩ : BufTy).Contents (Elt F)) : (⟨S64x1, .f32⟩ : BufTy).Contents (Elt F) :=
  addf (Host.dotGeneral dot_S64x128_S128x1_S64x1_1_0_0_1_n_n none (Host.divf (Host.scatterAdd scatter_S64x128_S50000x1_S50000x128_1_0_0_1 (broadcastInDim S64x128 ![] bcast_S_S64x128 (constant S_ .f32 0x00000000#32)) (broadcastInDim S50000x1 ![0] bcast_S50000_S50000x1_0 batch) h) (broadcastInDim S64x128 ![0, 1] bcast_S64x1_S64x128_0_1 (broadcastInDim S64x1 ![0] bcast_S64_S64x1_0 (maximumf (Host.scatterAdd scatter_S64_S50000x1_S50000_n_0_0_1 (broadcastInDim S64 ![] bcast_S_S64 (constant S_ .f32 0x00000000#32)) (broadcastInDim S50000x1 ![0] bcast_S50000_S50000x1_0 batch) (broadcastInDim S50000 ![] bcast_S_S50000 (constant S_ .f32 0x3F800000#32))) (broadcastInDim S64 ![] bcast_S_S64 (constant S_ .f32 0x3F800000#32)))))) Wr) (broadcastInDim S64x1 ![0, 1] bcast_S1x1_S64x1_0_1 (broadcastInDim S1x1 ![1] bcast_S1_S1x1_1 br))

/-- One layer: multiply, pass messages, add the bias, keep the positive part. -/
def layer (e : (⟨S2x800000, .i32⟩ : BufTy).Contents (Elt F)) (h : (⟨S50000x128, .f32⟩ : BufTy).Contents (Elt F)) (W : (⟨S128x128, .f32⟩ : BufTy).Contents (Elt F)) (b : (⟨S128, .f32⟩ : BufTy).Contents (Elt F)) : (⟨S50000x128, .f32⟩ : BufTy).Contents (Elt F) :=
  activate (aggregate e (linear h W)) b

/-- The whole network. -/
def network (x : (⟨S50000x100, .f32⟩ : BufTy).Contents (Elt F)) (e : (⟨S2x800000, .i32⟩ : BufTy).Contents (Elt F)) (batch : (⟨S50000, .i32⟩ : BufTy).Contents (Elt F)) (We : (⟨S100x128, .f32⟩ : BufTy).Contents (Elt F)) (be : (⟨S128, .f32⟩ : BufTy).Contents (Elt F))
    (g : (⟨S3x128x128, .f32⟩ : BufTy).Contents (Elt F)) (gb : (⟨S3x128, .f32⟩ : BufTy).Contents (Elt F)) (Wr : (⟨S128x1, .f32⟩ : BufTy).Contents (Elt F)) (br : (⟨S1, .f32⟩ : BufTy).Contents (Elt F)) : (⟨S64x1, .f32⟩ : BufTy).Contents (Elt F) :=
  readout batch (layer e (layer e (layer e (encode x We be) (weight0 g) (bias0 gb)) (weight1 g) (bias1 gb)) (weight2 g) (bias2 gb)) Wr br

end Cert.Spec

end
-- ==== Proof.RefNetwork.lean ====
/-
  The reference's result is the network.

  The reference program is one line of host operations; its result, as a composed term of the argument arrays'
  launch contents, is the network's definition with every piece unfolded.
-/
import proofs.«102854_j58385785422144_1_alg».proof.Proof.RefRun
import proofs.«102854_j58385785422144_1_alg».proof.Proof.Spec
import Idealize.ShloMosaic.PureOps.Ideal

set_option maxRecDepth 16384

noncomputable section

namespace Cert.Spec

open Idealize.ShloMosaic Idealize.ShloMosaic.TcCoe Idealize.SL.Sem

set_option maxHeartbeats 4000000 in
/-- The reference's composed result term is the network of the arguments. -/
theorem reference_result (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v115 (F := Ideal) m c = network (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) := by
  unfold Cert.ReferenceIdeal.ValueP.res_main_v115
  rfl

end Cert.Spec

end
-- ==== Proof.KernelRun.lean ====
/-
  The idealized kernel's run with its result named.

  The program is seven kernel regions among stretches of host operations. Its run is read as a fold of buffer
  contents from the launch memory: a stretch of host operations leaves each buffer it writes at the operation's
  value, a region leaves its output array at what its write-backs leave and every other buffer as it found it.
  Every weakly fair execution terminates, nothing faults, the argument arrays end as launched, and the result
  buffer ends at its contents at the last boundary of the fold. The launch of the segments and the reading of the
  final thread state against the final memory are those of the frame; the post keeps one buffer more.
-/
import proofs.«102854_j58385785422144_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at its contents at the
    fold's last boundary, and the nine argument arrays end as launched. -/
theorem run : θ_run defs (onTc (τ := τ) (main (F := F))) ⟨m, fun _ => 0, ρ⟩ (fun r => ∀ c : Dev nD,
      r.2.mem ((c.tc : Thread nD τ).loc main_v103) = W16 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v103 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c)⟩)

end Cert.KernelIdeal.NamedRun

end
-- ==== Proof.Keep.lean ====
/-
  Buffers that keep their contents along the run.

  Every buffer of the program is written once: by one host operation, or as the output array of one region. So
  along the fold of buffer contents from the launch memory a buffer that a stretch of host operations does not
  write is the same after the stretch as before it, and a buffer that is not a region's output array is the same
  after the region as before it. Here, per stretch, the list of the buffers its operations write, and from it
  the facts used later: an argument array holds its launch contents at every boundary where it is read, and the
  edge lists and the edge weights computed before the first layer are still there when each layer reads them.
-/
import proofs.«102854_j58385785422144_1_alg».proof.Proof.Gen.KernelIdeal.Frame

set_option maxRecDepth 16384

noncomputable section

namespace Cert.KernelIdeal.Fold

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## What each stretch of host operations writes -/

/-- The buffers `hostOps1`'s operations write. -/
abbrev written1 : List (Ref sig .tc) := [main_v1, main_v2, main_v3, main_v4, main_v5, main_v6, main_v7, main_cst, main_v8, main_cst_0, main_v9, main_v10, main_v11, main_cst_1, main_v12, main_v13, main_v14, main_cst_2]
theorem hostOps1_writes : (hostOps1 : List (HloOp τ sig (Elt F))).Forall fun op => op.writes ⊆ ((written1).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps1_1`'s operations write. -/
abbrev written1_1 : List (Ref sig .tc) := [main_call0_v0, main_call0_v1, main_v15]
theorem hostOps1_1_writes : (hostOps1_1 : List (HloOp τ sig (Elt F))).Forall fun op => op.writes ⊆ ((written1_1).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps1_2`'s operations write. -/
abbrev written1_2 : List (Ref sig .tc) := [main_c, main_v16, main_v17, main_c_3, main_v18, main_v19, main_v20, main_v21, main_v22, main_c_4, main_v23, main_v24, main_c_5, main_v25, main_v26, main_v27, main_v28, main_v29, main_v30, main_v31, main_v32]
theorem hostOps1_2_writes : (hostOps1_2 : List (HloOp τ sig (Elt F))).Forall fun op => op.writes ⊆ ((written1_2).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps2`'s operations write. -/
abbrev written2 : List (Ref sig .tc) := [main_c_6, main_v34, main_v35, main_c_7, main_v36, main_v37, main_v38, main_v39, main_v40, main_v41, main_v42, main_v43, main_cst_8, main_v44, main_v45, main_v46, main_v47, main_v48]
theorem hostOps2_writes : (hostOps2 : List (HloOp τ sig (Elt F))).Forall fun op => op.writes ⊆ ((written2).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps3`'s operations write. -/
abbrev written3 : List (Ref sig .tc) := [main_v50, main_v51]
theorem hostOps3_writes : (hostOps3 : List (HloOp τ sig (Elt F))).Forall fun op => op.writes ⊆ ((written3).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps4`'s operations write. -/
abbrev written4 : List (Ref sig .tc) := [main_c_9, main_v53, main_v54, main_c_10, main_v55, main_v56, main_v57, main_v58, main_v59, main_v60, main_v61, main_v62, main_cst_11, main_v63, main_v64, main_v65, main_v66, main_v67]
theorem hostOps4_writes : (hostOps4 : List (HloOp τ sig (Elt F))).Forall fun op => op.writes ⊆ ((written4).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps5`'s operations write. -/
abbrev written5 : List (Ref sig .tc) := [main_v69, main_v70]
theorem hostOps5_writes : (hostOps5 : List (HloOp τ sig (Elt F))).Forall fun op => op.writes ⊆ ((written5).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps6`'s operations write. -/
abbrev written6 : List (Ref sig .tc) := [main_c_12, main_v72, main_v73, main_c_13, main_v74, main_v75, main_v76, main_v77, main_v78, main_v79, main_v80, main_v81, main_cst_14, main_v82, main_v83, main_v84, main_v85, main_v86]
theorem hostOps6_writes : (hostOps6 : List (HloOp τ sig (Elt F))).Forall fun op => op.writes ⊆ ((written6).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps7`'s operations write. -/
abbrev written7 : List (Ref sig .tc) := [main_cst_15, main_v88, main_v89, main_v90, main_cst_16, main_v91, main_cst_17, main_v92, main_v93, main_v94, main_cst_18, main_v95, main_v96, main_v97, main_v98, main_v99, main_v100, main_v101, main_v102, main_v103]
theorem hostOps7_writes : (hostOps7 : List (HloOp τ sig (Elt F))).Forall fun op => op.writes ⊆ ((written7).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## A buffer a stretch does not write, across the stretch -/

theorem across1 (c : Dev nD) (r : Ref sig .tc) (h : r ∉ (written1 ++ written1_1 ++ written1_2 : List (Ref sig .tc))) :
    W4 m ρ c (Proc.devRef .tc r) = W1 m ρ c (Proc.devRef .tc r) := by
  have h1 : r ∉ (written1 : List (Ref sig .tc)) := fun hm => h (List.mem_append_left _ (List.mem_append_left _ hm))
  have h2 : r ∉ (written1_1 : List (Ref sig .tc)) := fun hm => h (List.mem_append_left _ (List.mem_append_right _ hm))
  have h3 : r ∉ (written1_2 : List (Ref sig .tc)) := fun hm => h (List.mem_append_right _ hm)
  exact (StableHlo.after_of_writes_sub hostOps1_2 _ hostOps1_2_writes h3).trans
    ((StableHlo.after_of_writes_sub hostOps1_1 _ hostOps1_1_writes h2).trans
      (StableHlo.after_of_writes_sub hostOps1 _ hostOps1_writes h1))
theorem across2 (c : Dev nD) (r : Ref sig .tc) (h : r ∉ (written2 : List (Ref sig .tc))) :
    W6 m ρ c (Proc.devRef .tc r) = W5 m ρ c (Proc.devRef .tc r) := StableHlo.after_of_writes_sub hostOps2 _ hostOps2_writes h
theorem across3 (c : Dev nD) (r : Ref sig .tc) (h : r ∉ (written3 : List (Ref sig .tc))) :
    W8 m ρ c (Proc.devRef .tc r) = W7 m ρ c (Proc.devRef .tc r) := StableHlo.after_of_writes_sub hostOps3 _ hostOps3_writes h
theorem across4 (c : Dev nD) (r : Ref sig .tc) (h : r ∉ (written4 : List (Ref sig .tc))) :
    W10 m ρ c (Proc.devRef .tc r) = W9 m ρ c (Proc.devRef .tc r) := StableHlo.after_of_writes_sub hostOps4 _ hostOps4_writes h
theorem across5 (c : Dev nD) (r : Ref sig .tc) (h : r ∉ (written5 : List (Ref sig .tc))) :
    W12 m ρ c (Proc.devRef .tc r) = W11 m ρ c (Proc.devRef .tc r) := StableHlo.after_of_writes_sub hostOps5 _ hostOps5_writes h
theorem across6 (c : Dev nD) (r : Ref sig .tc) (h : r ∉ (written6 : List (Ref sig .tc))) :
    W14 m ρ c (Proc.devRef .tc r) = W13 m ρ c (Proc.devRef .tc r) := StableHlo.after_of_writes_sub hostOps6 _ hostOps6_writes h

/-! ## From the first layer's entry on -/

/-- Written by nothing after the first layer's matrix product starts: by no later stretch, and no region's output. -/
def Settled (r : Ref sig .tc) : Prop :=
  r ∉ (written2 : List (Ref sig .tc)) ∧ r ∉ (written3 : List (Ref sig .tc)) ∧ r ∉ (written4 : List (Ref sig .tc))
  ∧ r ∉ (written5 : List (Ref sig .tc)) ∧ r ∉ (written6 : List (Ref sig .tc))
  ∧ (∀ w, Pipeline.arrRef spec1 w ≠ r) ∧ (∀ w, Pipeline.arrRef spec2 w ≠ r) ∧ (∀ w, Pipeline.arrRef spec3 w ≠ r)
  ∧ (∀ w, Pipeline.arrRef spec4 w ≠ r) ∧ (∀ w, Pipeline.arrRef spec5 w ≠ r) ∧ (∀ w, Pipeline.arrRef spec6 w ≠ r)

instance (r : Ref sig .tc) : Decidable (Settled r) := by unfold Settled; infer_instance

/-- Such a buffer holds, at the exit of each of the six later regions, what it held at the first layer's entry. -/
theorem settled (c : Dev nD) (r : Ref sig .tc) (h : Settled r) :
    W5 m ρ c (Proc.devRef .tc r) = W4 m ρ c (Proc.devRef .tc r)
    ∧ W7 m ρ c (Proc.devRef .tc r) = W4 m ρ c (Proc.devRef .tc r)
    ∧ W9 m ρ c (Proc.devRef .tc r) = W4 m ρ c (Proc.devRef .tc r)
    ∧ W11 m ρ c (Proc.devRef .tc r) = W4 m ρ c (Proc.devRef .tc r)
    ∧ W13 m ρ c (Proc.devRef .tc r) = W4 m ρ c (Proc.devRef .tc r)
    ∧ W15 m ρ c (Proc.devRef .tc r) = W4 m ρ c (Proc.devRef .tc r) := by
  obtain ⟨h2, h3, h4, h5, h6, r1, r2, r3, r4, r5, r6⟩ := h
  have e5 : W5 m ρ c (Proc.devRef .tc r) = W4 m ρ c (Proc.devRef .tc r) := W5_of_ne m ρ c r r1
  have e7 : W7 m ρ c (Proc.devRef .tc r) = W4 m ρ c (Proc.devRef .tc r) :=
    (W7_of_ne m ρ c r r2).trans ((across2 m ρ c r h2).trans e5)
  have e9 : W9 m ρ c (Proc.devRef .tc r) = W4 m ρ c (Proc.devRef .tc r) :=
    (W9_of_ne m ρ c r r3).trans ((across3 m ρ c r h3).trans e7)
  have e11 : W11 m ρ c (Proc.devRef .tc r) = W4 m ρ c (Proc.devRef .tc r) :=
    (W11_of_ne m ρ c r r4).trans ((across4 m ρ c r h4).trans e9)
  have e13 : W13 m ρ c (Proc.devRef .tc r) = W4 m ρ c (Proc.devRef .tc r) :=
    (W13_of_ne m ρ c r r5).trans ((across5 m ρ c r h5).trans e11)
  have e15 : W15 m ρ c (Proc.devRef .tc r) = W4 m ρ c (Proc.devRef .tc r) :=
    (W15_of_ne m ρ c r r6).trans ((across6 m ρ c r h6).trans e13)
  exact ⟨e5, e7, e9, e11, e13, e15⟩

/-- An argument array (a buffer no stretch writes and no region outputs) holds its launch contents when the first
    region ends and at the first layer's entry. -/
theorem launched (c : Dev nD) (r : Ref sig .tc) (h0 : ∀ w, Pipeline.arrRef spec0 w ≠ r)
    (h : r ∉ (written1 ++ written1_1 ++ written1_2 : List (Ref sig .tc))) :
    W1 m ρ c (Proc.devRef .tc r) = m ((c : Thread nD τ).loc r)
    ∧ W4 m ρ c (Proc.devRef .tc r) = m ((c : Thread nD τ).loc r) := by
  have e1 : W1 m ρ c (Proc.devRef .tc r) = m ((c : Thread nD τ).loc r) := (W1_of_ne m ρ c r h0).trans rfl
  exact ⟨e1, (across1 m ρ c r h).trans e1⟩

end Cert.KernelIdeal.Fold

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.LibDotRead.lean ====
/-
  The host's matrix product read at an entry, for ANY contraction record of the "rows by columns" form.

  The host's product of an `a × K` by a `K × b` array has no accumulator; at the ideal instance it is the
  accumulating product started from the all-zero block, so its entry `(p, q)` is `Σ_k lhs[p, k] · rhs[k, q]`
  with `k` over `Fin K`. The record is a variable, so one proof serves every host product of this form.
-/
import Idealize.ShloMosaic.Lib.KernelVsHost
import proofs.«102854_j58385785422144_1_alg».proof.Proof.LibMatmulRead

noncomputable section

namespace Idealize.ShloMosaic.MatmulRead

open Idealize.ShloMosaic Idealize.ShloMosaic.ValueIdx
open scoped BigOperators

variable {a K b : ℕ} {D : DotDims (⟨2, ![a, K]⟩ : Shape) (⟨2, ![K, b]⟩ : Shape) (⟨2, ![a, b]⟩ : Shape)}

/-- Entry `(p, q)` of the host's product is `Σ_k lhs[p, k] · rhs[k, q]`. -/
theorem hostDot_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    Host.dotGeneral D prec lhs rhs (ix2 p q) = ∑ k : Fin K, lhs (ix2 p k) * rhs (ix2 k q) := by
  rw [← matmul_zero_eq_dotGeneral]
  exact matmul_zero_ix2 h hr hs prec lhs rhs p q

end Idealize.ShloMosaic.MatmulRead
-- ==== Proof.SpecRead.lean ====
/-
  The three dense pieces of the network read at one entry, on the extended reals.

  `encode x W b` at (p, q) is the sum over k of x(p, k) W(k, q), plus b(q); `linear h W` at (p, q) is the sum
  over k of h(p, k) W(k, q); `activate a b` at (p, q) is the larger of a(p, q) + b(q) and zero. The bias enters
  through two broadcasts, a row of 128 entries laid as a 1 x 128 array and then repeated down the 50000 rows;
  read at (p, q) that is the row's entry q.
-/
import proofs.«102854_j58385785422144_1_alg».proof.Proof.Spec
import proofs.«102854_j58385785422144_1_alg».proof.Proof.LibDotRead
import Idealize.ShloMosaic.Lib.KernelVsHost
import Idealize.ShloMosaic.Lib.IdealHost
import Idealize.ShloMosaic.Lib.Pipeline.Value
import Idealize.ShloMosaic.Lib.ValueIdx

noncomputable section

namespace Cert.Spec

open Cert.ReferenceIdeal Cert.ReferenceIdeal.Facts₀ Cert.ReferenceIdeal.Facts Idealize.ShloMosaic Idealize.ShloMosaic.TcCoe
open Idealize.ShloMosaic.ValueIdx Idealize.ShloMosaic.MatmulRead
open scoped BigOperators

/-- A row of 128 entries, laid as a 1 x 128 array and repeated down 50000 rows, holds at (p, q) the row's entry q. -/
theorem biasRows_apply (b : (⟨S128, .f32⟩ : BufTy).Contents (Elt Ideal)) (p : Fin 50000) (q : Fin 128) :
    broadcastInDim S50000x128 ![0, 1] bcast_S1x128_S50000x128_0_1 (broadcastInDim S1x128 ![1] bcast_S128_S1x128_1 b) (ix2 p q) = b (ix1 q) := by
  refine (broadcastInDim_oneRow_apply bcast_S1x128_S50000x128_0_1 _ p q).trans ?_
  refine broadcastInDim_apply ![1] bcast_S128_S1x128_1 b (ix2 (0 : Fin 1) q) (ix1 q) ?_
  intro a
  match a with
  | ⟨0, _⟩ => exact (if_neg (by decide : ¬ ((128 : ℕ) = 1))).symm

/-- The layers' matrix product at (p, q): row p of `h` against column q of `W`. -/
theorem linear_apply (h : (⟨S50000x128, .f32⟩ : BufTy).Contents (Elt Ideal)) (W : (⟨S128x128, .f32⟩ : BufTy).Contents (Elt Ideal)) (p : Fin 50000) (q : Fin 128) :
    linear (F := Ideal) h W (ix2 p q) = ∑ k : Fin 128, h (ix2 p k) * W (ix2 k q) :=
  hostDot_ix2 (D := dot_S50000x128_S128x128_S50000x128_1_0_0_1_n_n) ⟨rfl, rfl, rfl, rfl, rfl, rfl⟩ rfl rfl none h W p q

/-- The encoder at (p, q): row p of `x` against column q of `W`, plus the bias's entry q. -/
theorem encode_apply (x : (⟨S50000x100, .f32⟩ : BufTy).Contents (Elt Ideal)) (W : (⟨S100x128, .f32⟩ : BufTy).Contents (Elt Ideal)) (b : (⟨S128, .f32⟩ : BufTy).Contents (Elt Ideal)) (p : Fin 50000) (q : Fin 128) :
    encode (F := Ideal) x W b (ix2 p q) = (∑ k : Fin 100, x (ix2 p k) * W (ix2 k q)) + b (ix1 q) :=
  congrArg₂ (· + ·) (hostDot_ix2 (D := dot_S50000x100_S100x128_S50000x128_1_0_0_1_n_n) ⟨rfl, rfl, rfl, rfl, rfl, rfl⟩ rfl rfl none x W p q)
    (biasRows_apply b p q)

/-- Bias and positive part at (p, q). -/
theorem activate_apply (a : (⟨S50000x128, .f32⟩ : BufTy).Contents (Elt Ideal)) (b : (⟨S128, .f32⟩ : BufTy).Contents (Elt Ideal)) (p : Fin 50000) (q : Fin 128) :
    activate (F := Ideal) a b (ix2 p q) = max (a (ix2 p q) + b (ix1 q)) (Ideal.ofBits .f32 0x00000000#32) :=
  congrArg₂ max (congrArg (a (ix2 p q) + ·) (biasRows_apply b p q))
    (broadcastInDim_scalar_apply bcast_S_S50000x128 (constant (F := Ideal) S_ .f32 0x00000000#32) (ix2 p q))

end Cert.Spec

end
-- ==== Proof.Encoder.lean ====
/-
  The encoder kernel launched as region 0: what its output array holds when the region ends.

  The grid has ten points. Point t takes rows 5000 t … 5000 t + 4999 of the 50000 x 100 input, the whole 100 x 128
  matrix and the whole bias row, and writes the block's product plus the bias (the same row added to every row of
  the block) back to the same rows of the output. Entry (r, q) of a block is the sum over k of
  input(5000 t + r, k) times matrix(k, q), plus bias(q) — the change of float format before the product is the
  identity on the extended reals and the product starts from a zero block — so every block is the corresponding
  rows of the encoder applied to the whole arrays, and the ten blocks cover all rows.
-/
import proofs.«102854_j58385785422144_1_alg».proof.Proof.Gen.KernelIdeal.Frame
import proofs.«102854_j58385785422144_1_alg».proof.Proof.SpecRead
import Idealize.ShloMosaic.Lib.Pipeline.Value
import Idealize.ShloMosaic.Lib.ValueIdx
import Idealize.ShloMosaic.Lib.ValueLayout

set_option maxRecDepth 16384

noncomputable section

namespace Cert.KernelIdeal.Encoder

open Cert.KernelIdeal Cert.KernelIdeal.Gen Idealize.ShloMosaic Idealize.ShloMosaic.TcCoe Idealize.SL.Sem
open Idealize.ShloMosaic.ValueIdx Idealize.ShloMosaic.MatmulRead
open Idealize.ShloMosaic.Pipeline (Dat)
open scoped BigOperators

variable (V : (c : Dev nD) → (b : Ref sig .tc) → Buf (Elt Ideal) ((c : Thread nD τ).loc b))

theorem origin : (![0, 0] : Fin 2 → Nat) = fun _ => 0 := funext fun a => by fin_cases a <;> rfl
theorem origin1 : (![0] : Fin 1 → Nat) = fun _ => 0 := funext fun a => by fin_cases a; rfl

/-- Entry (r, q) of what the body stores: row r of the input block against column q of the matrix, plus the
    bias's entry q. -/
theorem stored_apply (x0 : Vec Ideal S5000x100 .f32) (x1 : Vec Ideal S100x128 .f32) (x2 : Vec Ideal S128 .f32) (r : Fin 5000) (q : Fin 128) :
    k0_pay1 x0 x1 x2 (ix2 r q) = (∑ k : Fin 100, x0 (ix2 r k) * x1 (ix2 k q)) + x2 (ix1 q) := by
  unfold k0_pay1
  refine congrArg₂ (· + ·) ?_ ?_
  · exact matmul_zero_ix2 (D := dot_S5000x100_S100x128_S5000x128_1_0_0_1_n_n) ⟨rfl, rfl, rfl, rfl, rfl, rfl⟩ rfl rfl none _ _ r q
  · refine (broadcastTo_1b_ab_apply _ broadcasts_S1x128_S5000x128 r q).trans ?_
    exact shapeCast_a_1a_apply x2 shapeCasts_S128_S1x128 (0 : Fin 1) q

/-- Where the windows sit at point t: the input and output blocks start at row block t, column block 0; the matrix
    and the bias windows are the whole arrays. -/
theorem placement : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0
    ∧ win0_3.index t (0 : Fin 2) ≤ 9 :=
  (by decide +kernel : ∀ t : Fin grid0.N, _)

/-- Every row block is some point's. -/
theorem placement_onto : ∀ (q0 : Fin 10), ∃ t : Fin cfg0.N, win0_3.index t = ![q0.val, 0] :=
  (by decide +kernel : ∀ (q0 : Fin 10), ∃ t : Fin grid0.N, win0_3.index t = ![q0.val, 0])

/-- What point t writes back is block t of the encoder's whole result. -/
theorem flushed_eq (c : Dev nD) (t : Fin cfg0.N) :
    (dat0 V c).flushed 3 t = ((cfg0.win 3).blk t).view.read (Elt Ideal) (Cert.Spec.encode (F := Ideal) (V c main_arg0) (V c main_arg3) (V c main_arg4)) := by
  show (cfg0.win 3).cut (grid0.coords t) ((dat0 V c).after 3 t) = _
  rw [after0_3]
  unfold out0_3
  rw [View.canon_unit_zero origin]
  simp only [View.ld_unit_zero (S := S5000x100) origin, View.ld_unit_zero (S := S100x128) origin, View.ld_unit_zero (S := S128) origin1]
  obtain ⟨e0, e1, e2, e3, e4, e5, e6⟩ := placement t
  funext j
  obtain ⟨r, q, rfl⟩ : ∃ (r : Fin 5000) (q : Fin 128), j = ix2 r q := ⟨j 0, j 1, eq_ix2 j⟩
  have hr : r.val < 5000 := r.isLt
  have hemb : ((cfg0.win 3).blk t).view.emb (ix2 r q) = ix2 (⟨win0_3.index t (0 : Fin 2) * 5000 + 1 * r.val, by omega⟩ : Fin 50000) q := by
    funext a; apply Fin.ext
    match a with
    | ⟨0, _⟩ => rfl
    | ⟨1, _⟩ => show win0_3.index t (1 : Fin 2) * 128 + 1 * q.val = q.val; omega
  show k0_pay1 (iblk0 V c 0 t) (iblk0 V c 1 t) (iblk0 V c 2 t) (ix2 r q) = Cert.Spec.encode (F := Ideal) (V c main_arg0) (V c main_arg3) (V c main_arg4) (((cfg0.win 3).blk t).view.emb (ix2 r q))
  rw [hemb, Cert.Spec.encode_apply]
  refine (stored_apply (iblk0 V c 0 t) (iblk0 V c 1 t) (iblk0 V c 2 t) r q).trans ?_
  refine congrArg₂ (· + ·) (Finset.sum_congr rfl fun k _ => ?_) ?_
  · have h0 : ((cfg0.win 0).blk t).view.emb (ix2 r k) = ix2 (⟨win0_3.index t (0 : Fin 2) * 5000 + 1 * r.val, by omega⟩ : Fin 50000) k := by
      funext a; apply Fin.ext
      match a with
      | ⟨0, _⟩ => show win0_0.index t (0 : Fin 2) * 5000 + 1 * r.val = win0_3.index t (0 : Fin 2) * 5000 + 1 * r.val; omega
      | ⟨1, _⟩ => show win0_0.index t (1 : Fin 2) * 100 + 1 * k.val = k.val; omega
    have h1 : ((cfg0.win 1).blk t).view.emb (ix2 k q) = ix2 k q := by
      funext a; apply Fin.ext
      match a with
      | ⟨0, _⟩ => show win0_1.index t (0 : Fin 2) * 100 + 1 * k.val = k.val; omega
      | ⟨1, _⟩ => show win0_1.index t (1 : Fin 2) * 128 + 1 * q.val = q.val; omega
    exact congrArg₂ (· * ·) (congrArg (V c main_arg0 : FVec Ideal S50000x100 .f32) h0) (congrArg (V c main_arg3 : FVec Ideal S100x128 .f32) h1)
  · have h2 : ((cfg0.win 2).blk t).view.emb (ix1 q) = ix1 q := by
      funext a; apply Fin.ext
      match a with
      | ⟨0, _⟩ => show win0_2.index t (0 : Fin 1) * 128 + 1 * q.val = q.val; omega
    exact congrArg (V c main_arg4 : FVec Ideal S128 .f32) h2

/-- An index of the output array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0).slice (win0_3.rect t)).set ↔ _
  rw [View.set_slice_whole, Rect.mem_set_unit]
  exact Iff.rfl

/-- The ten blocks cover the array: row i lies in the block of point i / 5000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := placement_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array when the region ends: the encoder applied to the three arrays as the region found them. -/
theorem final (c : Dev nD) : (dat0 V c).arrAt 3 cfg0.N = Cert.Spec.encode (F := Ideal) (V c main_arg0) (V c main_arg3) (V c main_arg4) :=
  (dat0 V c).arrAt_eq_of_cover 3 _ (fun t _ => flushed_eq V c t) covered

end Cert.KernelIdeal.Encoder

end
-- ==== Proof.HostStagesA.lean ====
/-
  The host operations between the encoder and the first layer, read as functions of the buffers they find.

  From whatever contents `V` the buffers have when the stretch starts, its operations leave: the edges' sources and
  destinations (the two rows of the edge list, each followed by the self loops), the edges' weights (from the
  degrees counted over the destinations), and the first layer's weight matrix (cut out of the stack) — the
  specification's functions of the edge list and of the stack as `V` holds them.
-/
import proofs.«102854_j58385785422144_1_alg».proof.Proof.Gen.KernelIdeal.Launch
import proofs.«102854_j58385785422144_1_alg».proof.Proof.Spec
import Idealize.ShloMosaic.Lib.StableHlo.Run

set_option maxRecDepth 16384

noncomputable section

namespace Cert.KernelIdeal.HostStage

open Cert.KernelIdeal Cert.KernelIdeal.Gen Idealize.ShloMosaic Idealize.ShloMosaic.TcCoe Idealize.SL.Sem

variable {F : FTy → Type} [FloatOps F] (V : Valuation τ sig (Elt F))

/-- The edges' sources. -/
theorem sources :
    StableHlo.after hostOps1_2 (StableHlo.after hostOps1_1 (StableHlo.after hostOps1 V)) (Proc.devRef .tc main_v4) = Cert.Spec.endpoints0 (F := F) (V (Proc.devRef .tc main_arg1)) := by
  dsimp only [hostOps1, hostOps1_1, hostOps1_2, hostOps2, hostOps3, hostOps4, hostOps5, hostOps6, hostOps7]
  after_results_simp
  rfl

/-- The edges' destinations. -/
theorem destinations :
    StableHlo.after hostOps1_2 (StableHlo.after hostOps1_1 (StableHlo.after hostOps1 V)) (Proc.devRef .tc main_v7) = Cert.Spec.endpoints1 (F := F) (V (Proc.devRef .tc main_arg1)) := by
  dsimp only [hostOps1, hostOps1_1, hostOps1_2, hostOps2, hostOps3, hostOps4, hostOps5, hostOps6, hostOps7]
  after_results_simp
  rfl

/-- The edges' weights. -/
theorem weights :
    StableHlo.after hostOps1_2 (StableHlo.after hostOps1_1 (StableHlo.after hostOps1 V)) (Proc.devRef .tc main_v30) = Cert.Spec.edgeWeight (F := F) (V (Proc.devRef .tc main_arg1)) := by
  dsimp only [hostOps1, hostOps1_1, hostOps1_2, hostOps2, hostOps3, hostOps4, hostOps5, hostOps6, hostOps7]
  after_results_simp
  rfl

/-- The first layer's weight matrix. -/
theorem matrix0 :
    StableHlo.after hostOps1_2 (StableHlo.after hostOps1_1 (StableHlo.after hostOps1 V)) (Proc.devRef .tc main_v32) = Cert.Spec.weight0 (F := F) (V (Proc.devRef .tc main_arg5)) := by
  dsimp only [hostOps1, hostOps1_1, hostOps1_2, hostOps2, hostOps3, hostOps4, hostOps5, hostOps6, hostOps7]
  after_results_simp
  rfl

end Cert.KernelIdeal.HostStage

end
-- ==== Proof.Prologue.lean ====
/-
  The run up to the first layer.

  Region 0 leaves the encoder's output, `x W + b` of the launch contents of the three arrays it reads. The host
  operations that follow compute, from the edge list alone, the edges' sources and destinations with the self
  loops appended, and the edges' weights; and they cut the first layer's weight matrix out of the stack. None of
  them touches the encoder's output. The edge data and the argument arrays are written by nothing later, so they
  are still there at every later boundary.
-/
import proofs.«102854_j58385785422144_1_alg».proof.Proof.Keep
import proofs.«102854_j58385785422144_1_alg».proof.Proof.Encoder
import proofs.«102854_j58385785422144_1_alg».proof.Proof.HostStagesA
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo (after_cons after_nil)

variable (m : (ℓ : Loc nD τ sig) → Buf (Elt Ideal) ℓ) (ρ : Dev nD → PrngReg)

/-- Region 0's output array when it ends: the encoder of the launch contents. -/
theorem encoded (c : Dev nD) :
    W1 m ρ c (Proc.devRef .tc main_v0) = Cert.Spec.encode (F := Ideal) (m ((c : Thread nD τ).loc main_arg0)) (m ((c : Thread nD τ).loc main_arg3)) (m ((c : Thread nD τ).loc main_arg4)) :=
  (W1_arr m ρ c 3).trans (Encoder.final (V0 m ρ) c)

/-- It is still there when the first layer's matrix product starts. -/
theorem encoded_entry (c : Dev nD) :
    W4 m ρ c (Proc.devRef .tc main_v0) = Cert.Spec.encode (F := Ideal) (m ((c : Thread nD τ).loc main_arg0)) (m ((c : Thread nD τ).loc main_arg3)) (m ((c : Thread nD τ).loc main_arg4)) :=
  (across1 m ρ c main_v0 (by decide)).trans (encoded m ρ c)

/-- The edges' sources at the first layer's entry. -/
theorem sources_entry (c : Dev nD) :
    W4 m ρ c (Proc.devRef .tc main_v4) = Cert.Spec.endpoints0 (F := Ideal) (m ((c : Thread nD τ).loc main_arg1)) :=
  (HostStage.sources (W1 m ρ c)).trans
    (congrArg (Cert.Spec.endpoints0 (F := Ideal)) (launched m ρ c main_arg1 (by decide) (by decide)).1)

/-- The edges' destinations at the first layer's entry. -/
theorem destinations_entry (c : Dev nD) :
    W4 m ρ c (Proc.devRef .tc main_v7) = Cert.Spec.endpoints1 (F := Ideal) (m ((c : Thread nD τ).loc main_arg1)) :=
  (HostStage.destinations (W1 m ρ c)).trans
    (congrArg (Cert.Spec.endpoints1 (F := Ideal)) (launched m ρ c main_arg1 (by decide) (by decide)).1)

/-- The edges' weights at the first layer's entry. -/
theorem weights_entry (c : Dev nD) :
    W4 m ρ c (Proc.devRef .tc main_v30) = Cert.Spec.edgeWeight (F := Ideal) (m ((c : Thread nD τ).loc main_arg1)) :=
  (HostStage.weights (W1 m ρ c)).trans
    (congrArg (Cert.Spec.edgeWeight (F := Ideal)) (launched m ρ c main_arg1 (by decide) (by decide)).1)

/-- The first layer's weight matrix at the first layer's entry. -/
theorem matrix_entry (c : Dev nD) :
    W4 m ρ c (Proc.devRef .tc main_v32) = Cert.Spec.weight0 (F := Ideal) (m ((c : Thread nD τ).loc main_arg5)) :=
  (HostStage.matrix0 (W1 m ρ c)).trans
    (congrArg (Cert.Spec.weight0 (F := Ideal)) (launched m ρ c main_arg5 (by decide) (by decide)).1)

/-- What a buffer written by nothing later holds at the first layer's entry, it holds at the exit of each later region. -/
theorem later (c : Dev nD) (r : Ref sig .tc) (h : Settled r) {x : Buf (Elt Ideal) ((c : Thread nD τ).loc r)}
    (hx : W4 m ρ c (Proc.devRef .tc r) = x) :
    W5 m ρ c (Proc.devRef .tc r) = x ∧ W7 m ρ c (Proc.devRef .tc r) = x ∧ W9 m ρ c (Proc.devRef .tc r) = x
    ∧ W11 m ρ c (Proc.devRef .tc r) = x ∧ W13 m ρ c (Proc.devRef .tc r) = x ∧ W15 m ρ c (Proc.devRef .tc r) = x := by
  obtain ⟨e5, e7, e9, e11, e13, e15⟩ := settled m ρ c r h
  exact ⟨e5.trans hx, e7.trans hx, e9.trans hx, e11.trans hx, e13.trans hx, e15.trans hx⟩

theorem sources_later (c : Dev nD) :
    W5 m ρ c (Proc.devRef .tc main_v4) = Cert.Spec.endpoints0 (F := Ideal) (m ((c : Thread nD τ).loc main_arg1))
    ∧ W7 m ρ c (Proc.devRef .tc main_v4) = Cert.Spec.endpoints0 (F := Ideal) (m ((c : Thread nD τ).loc main_arg1))
    ∧ W9 m ρ c (Proc.devRef .tc main_v4) = Cert.Spec.endpoints0 (F := Ideal) (m ((c : Thread nD τ).loc main_arg1))
    ∧ W11 m ρ c (Proc.devRef .tc main_v4) = Cert.Spec.endpoints0 (F := Ideal) (m ((c : Thread nD τ).loc main_arg1))
    ∧ W13 m ρ c (Proc.devRef .tc main_v4) = Cert.Spec.endpoints0 (F := Ideal) (m ((c : Thread nD τ).loc main_arg1))
    ∧ W15 m ρ c (Proc.devRef .tc main_v4) = Cert.Spec.endpoints0 (F := Ideal) (m ((c : Thread nD τ).loc main_arg1)) :=
  later m ρ c main_v4 (by decide) (sources_entry m ρ c)

theorem destinations_later (c : Dev nD) :
    W5 m ρ c (Proc.devRef .tc main_v7) = Cert.Spec.endpoints1 (F := Ideal) (m ((c : Thread nD τ).loc main_arg1))
    ∧ W7 m ρ c (Proc.devRef .tc main_v7) = Cert.Spec.endpoints1 (F := Ideal) (m ((c : Thread nD τ).loc main_arg1))
    ∧ W9 m ρ c (Proc.devRef .tc main_v7) = Cert.Spec.endpoints1 (F := Ideal) (m ((c : Thread nD τ).loc main_arg1))
    ∧ W11 m ρ c (Proc.devRef .tc main_v7) = Cert.Spec.endpoints1 (F := Ideal) (m ((c : Thread nD τ).loc main_arg1))
    ∧ W13 m ρ c (Proc.devRef .tc main_v7) = Cert.Spec.endpoints1 (F := Ideal) (m ((c : Thread nD τ).loc main_arg1))
    ∧ W15 m ρ c (Proc.devRef .tc main_v7) = Cert.Spec.endpoints1 (F := Ideal) (m ((c : Thread nD τ).loc main_arg1)) :=
  later m ρ c main_v7 (by decide) (destinations_entry m ρ c)

theorem weights_later (c : Dev nD) :
    W5 m ρ c (Proc.devRef .tc main_v30) = Cert.Spec.edgeWeight (F := Ideal) (m ((c : Thread nD τ).loc main_arg1))
    ∧ W7 m ρ c (Proc.devRef .tc main_v30) = Cert.Spec.edgeWeight (F := Ideal) (m ((c : Thread nD τ).loc main_arg1))
    ∧ W9 m ρ c (Proc.devRef .tc main_v30) = Cert.Spec.edgeWeight (F := Ideal) (m ((c : Thread nD τ).loc main_arg1))
    ∧ W11 m ρ c (Proc.devRef .tc main_v30) = Cert.Spec.edgeWeight (F := Ideal) (m ((c : Thread nD τ).loc main_arg1))
    ∧ W13 m ρ c (Proc.devRef .tc main_v30) = Cert.Spec.edgeWeight (F := Ideal) (m ((c : Thread nD τ).loc main_arg1))
    ∧ W15 m ρ c (Proc.devRef .tc main_v30) = Cert.Spec.edgeWeight (F := Ideal) (m ((c : Thread nD τ).loc main_arg1)) :=
  later m ρ c main_v30 (by decide) (weights_entry m ρ c)

theorem batch_later (c : Dev nD) :
    W5 m ρ c (Proc.devRef .tc main_arg2) = (m ((c : Thread nD τ).loc main_arg2))
    ∧ W7 m ρ c (Proc.devRef .tc main_arg2) = (m ((c : Thread nD τ).loc main_arg2))
    ∧ W9 m ρ c (Proc.devRef .tc main_arg2) = (m ((c : Thread nD τ).loc main_arg2))
    ∧ W11 m ρ c (Proc.devRef .tc main_arg2) = (m ((c : Thread nD τ).loc main_arg2))
    ∧ W13 m ρ c (Proc.devRef .tc main_arg2) = (m ((c : Thread nD τ).loc main_arg2))
    ∧ W15 m ρ c (Proc.devRef .tc main_arg2) = (m ((c : Thread nD τ).loc main_arg2)) :=
  later m ρ c main_arg2 (by decide) (launched m ρ c main_arg2 (by decide) (by decide)).2

theorem stack_later (c : Dev nD) :
    W5 m ρ c (Proc.devRef .tc main_arg5) = (m ((c : Thread nD τ).loc main_arg5))
    ∧ W7 m ρ c (Proc.devRef .tc main_arg5) = (m ((c : Thread nD τ).loc main_arg5))
    ∧ W9 m ρ c (Proc.devRef .tc main_arg5) = (m ((c : Thread nD τ).loc main_arg5))
    ∧ W11 m ρ c (Proc.devRef .tc main_arg5) = (m ((c : Thread nD τ).loc main_arg5))
    ∧ W13 m ρ c (Proc.devRef .tc main_arg5) = (m ((c : Thread nD τ).loc main_arg5))
    ∧ W15 m ρ c (Proc.devRef .tc main_arg5) = (m ((c : Thread nD τ).loc main_arg5)) :=
  later m ρ c main_arg5 (by decide) (launched m ρ c main_arg5 (by decide) (by decide)).2

theorem biases_later (c : Dev nD) :
    W5 m ρ c (Proc.devRef .tc main_arg6) = (m ((c : Thread nD τ).loc main_arg6))
    ∧ W7 m ρ c (Proc.devRef .tc main_arg6) = (m ((c : Thread nD τ).loc main_arg6))
    ∧ W9 m ρ c (Proc.devRef .tc main_arg6) = (m ((c : Thread nD τ).loc main_arg6))
    ∧ W11 m ρ c (Proc.devRef .tc main_arg6) = (m ((c : Thread nD τ).loc main_arg6))
    ∧ W13 m ρ c (Proc.devRef .tc main_arg6) = (m ((c : Thread nD τ).loc main_arg6))
    ∧ W15 m ρ c (Proc.devRef .tc main_arg6) = (m ((c : Thread nD τ).loc main_arg6)) :=
  later m ρ c main_arg6 (by decide) (launched m ρ c main_arg6 (by decide) (by decide)).2

theorem column_later (c : Dev nD) :
    W5 m ρ c (Proc.devRef .tc main_arg7) = (m ((c : Thread nD τ).loc main_arg7))
    ∧ W7 m ρ c (Proc.devRef .tc main_arg7) = (m ((c : Thread nD τ).loc main_arg7))
    ∧ W9 m ρ c (Proc.devRef .tc main_arg7) = (m ((c : Thread nD τ).loc main_arg7))
    ∧ W11 m ρ c (Proc.devRef .tc main_arg7) = (m ((c : Thread nD τ).loc main_arg7))
    ∧ W13 m ρ c (Proc.devRef .tc main_arg7) = (m ((c : Thread nD τ).loc main_arg7))
    ∧ W15 m ρ c (Proc.devRef .tc main_arg7) = (m ((c : Thread nD τ).loc main_arg7)) :=
  later m ρ c main_arg7 (by decide) (launched m ρ c main_arg7 (by decide) (by decide)).2

theorem constant_later (c : Dev nD) :
    W5 m ρ c (Proc.devRef .tc main_arg8) = (m ((c : Thread nD τ).loc main_arg8))
    ∧ W7 m ρ c (Proc.devRef .tc main_arg8) = (m ((c : Thread nD τ).loc main_arg8))
    ∧ W9 m ρ c (Proc.devRef .tc main_arg8) = (m ((c : Thread nD τ).loc main_arg8))
    ∧ W11 m ρ c (Proc.devRef .tc main_arg8) = (m ((c : Thread nD τ).loc main_arg8))
    ∧ W13 m ρ c (Proc.devRef .tc main_arg8) = (m ((c : Thread nD τ).loc main_arg8))
    ∧ W15 m ρ c (Proc.devRef .tc main_arg8) = (m ((c : Thread nD τ).loc main_arg8)) :=
  later m ρ c main_arg8 (by decide) (launched m ρ c main_arg8 (by decide) (by decide)).2

end Cert.KernelIdeal.Fold

end
-- ==== Proof.HostStagesB.lean ====
/-
  The host operations inside and between the layers, and the read-out, as functions of the buffers they find.

  From whatever contents `V` the buffers have when a stretch starts: the stretch after a layer's matrix product
  leaves the message passing of that product over the edge arrays as `V` holds them, and the layer's bias row cut
  out of the stack; the short stretch before the second and third products leaves the layer's weight matrix; the
  last stretch leaves the read-out of the last layer's output.
-/
import proofs.«102854_j58385785422144_1_alg».proof.Proof.Gen.KernelIdeal.Launch
import proofs.«102854_j58385785422144_1_alg».proof.Proof.Spec
import Idealize.ShloMosaic.Lib.StableHlo.Run

set_option maxRecDepth 16384

noncomputable section

namespace Cert.KernelIdeal.HostStage

open Cert.KernelIdeal Cert.KernelIdeal.Gen Idealize.ShloMosaic Idealize.ShloMosaic.TcCoe Idealize.SL.Sem

variable {F : FTy → Type} [FloatOps F] (V : Valuation τ sig (Elt F))

/-- Message passing of layer 1's product. -/
theorem gathered1 :
    StableHlo.after hostOps2 V (Proc.devRef .tc main_v46) = Cert.Spec.spread (F := F) (V (Proc.devRef .tc main_v4)) (V (Proc.devRef .tc main_v7)) (V (Proc.devRef .tc main_v30)) (V (Proc.devRef .tc main_v33)) := by
  dsimp only [hostOps1, hostOps1_1, hostOps1_2, hostOps2, hostOps3, hostOps4, hostOps5, hostOps6, hostOps7]
  after_results_simp
  rfl

/-- Layer 1's bias row. -/
theorem biasRow1 :
    StableHlo.after hostOps2 V (Proc.devRef .tc main_v48) = Cert.Spec.bias0 (F := F) (V (Proc.devRef .tc main_arg6)) := by
  dsimp only [hostOps1, hostOps1_1, hostOps1_2, hostOps2, hostOps3, hostOps4, hostOps5, hostOps6, hostOps7]
  after_results_simp
  rfl

/-- Message passing of layer 2's product. -/
theorem gathered2 :
    StableHlo.after hostOps4 V (Proc.devRef .tc main_v65) = Cert.Spec.spread (F := F) (V (Proc.devRef .tc main_v4)) (V (Proc.devRef .tc main_v7)) (V (Proc.devRef .tc main_v30)) (V (Proc.devRef .tc main_v52)) := by
  dsimp only [hostOps1, hostOps1_1, hostOps1_2, hostOps2, hostOps3, hostOps4, hostOps5, hostOps6, hostOps7]
  after_results_simp
  rfl

/-- Layer 2's bias row. -/
theorem biasRow2 :
    StableHlo.after hostOps4 V (Proc.devRef .tc main_v67) = Cert.Spec.bias1 (F := F) (V (Proc.devRef .tc main_arg6)) := by
  dsimp only [hostOps1, hostOps1_1, hostOps1_2, hostOps2, hostOps3, hostOps4, hostOps5, hostOps6, hostOps7]
  after_results_simp
  rfl

/-- Layer 2's weight matrix. -/
theorem matrix2 :
    StableHlo.after hostOps3 V (Proc.devRef .tc main_v51) = Cert.Spec.weight1 (F := F) (V (Proc.devRef .tc main_arg5)) := by
  dsimp only [hostOps1, hostOps1_1, hostOps1_2, hostOps2, hostOps3, hostOps4, hostOps5, hostOps6, hostOps7]
  after_results_simp
  rfl

/-- Message passing of layer 3's product. -/
theorem gathered3 :
    StableHlo.after hostOps6 V (Proc.devRef .tc main_v84) = Cert.Spec.spread (F := F) (V (Proc.devRef .tc main_v4)) (V (Proc.devRef .tc main_v7)) (V (Proc.devRef .tc main_v30)) (V (Proc.devRef .tc main_v71)) := by
  dsimp only [hostOps1, hostOps1_1, hostOps1_2, hostOps2, hostOps3, hostOps4, hostOps5, hostOps6, hostOps7]
  after_results_simp
  rfl

/-- Layer 3's bias row. -/
theorem biasRow3 :
    StableHlo.after hostOps6 V (Proc.devRef .tc main_v86) = Cert.Spec.bias2 (F := F) (V (Proc.devRef .tc main_arg6)) := by
  dsimp only [hostOps1, hostOps1_1, hostOps1_2, hostOps2, hostOps3, hostOps4, hostOps5, hostOps6, hostOps7]
  after_results_simp
  rfl

/-- Layer 3's weight matrix. -/
theorem matrix3 :
    StableHlo.after hostOps5 V (Proc.devRef .tc main_v70) = Cert.Spec.weight2 (F := F) (V (Proc.devRef .tc main_arg5)) := by
  dsimp only [hostOps1, hostOps1_1, hostOps1_2, hostOps2, hostOps3, hostOps4, hostOps5, hostOps6, hostOps7]
  after_results_simp
  rfl

/-- The read-out. -/
theorem pooled :
    StableHlo.after hostOps7 V (Proc.devRef .tc main_v103) = Cert.Spec.readout (F := F) (V (Proc.devRef .tc main_arg2)) (V (Proc.devRef .tc main_v87)) (V (Proc.devRef .tc main_arg7)) (V (Proc.devRef .tc main_arg8)) := by
  dsimp only [hostOps1, hostOps1_1, hostOps1_2, hostOps2, hostOps3, hostOps4, hostOps5, hostOps6, hostOps7]
  after_results_simp
  rfl

end Cert.KernelIdeal.HostStage

end
-- ==== Proof.Linear1.lean ====
/-
  The matrix-product kernel launched as region 1: what its output array holds when the region ends.

  The grid has ten points. Point t takes rows 5000 t … 5000 t + 4999 of the 50000 x 128 input, the whole 128 x 128
  matrix, and writes the block's product back to the same rows of the output. Entry (r, q) of a block's product is
  the sum over k of input(5000 t + r, k) times matrix(k, q) — the change of float format before the product is the
  identity on the extended reals, and the product starts from a zero block — so every block is the corresponding
  rows of the one product of the whole arrays. The ten blocks cover all 50000 rows, hence the output array is
  that product.
-/
import proofs.«102854_j58385785422144_1_alg».proof.Proof.Gen.KernelIdeal.Frame
import proofs.«102854_j58385785422144_1_alg».proof.Proof.SpecRead
import Idealize.ShloMosaic.Lib.Pipeline.Value
import Idealize.ShloMosaic.Lib.ValueIdx
import Idealize.ShloMosaic.Lib.ValueLayout

set_option maxRecDepth 16384

noncomputable section

namespace Cert.KernelIdeal.Linear1

open Cert.KernelIdeal Cert.KernelIdeal.Gen Idealize.ShloMosaic Idealize.ShloMosaic.TcCoe Idealize.SL.Sem
open Idealize.ShloMosaic.ValueIdx Idealize.ShloMosaic.MatmulRead
open Idealize.ShloMosaic.Pipeline (Dat)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- Entry (r, q) of what the body stores: row r of the input block against column q of the matrix. -/
theorem stored_apply (x0 : Vec Ideal S5000x128 .f32) (x1 : Vec Ideal S128x128 .f32) (r : Fin 5000) (q : Fin 128) :
    k1_pay1 x0 x1 (ix2 r q) = ∑ k : Fin 128, x0 (ix2 r k) * x1 (ix2 k q) := by
  unfold k1_pay1
  refine (matmul_zero_ix2 (D := dot_S5000x128_S128x128_S5000x128_1_0_0_1_n_n) ⟨rfl, rfl, rfl, rfl, rfl, rfl⟩ rfl rfl none _ _ r q).trans ?_
  refine Finset.sum_congr rfl fun k _ => ?_
  show (shapeCast S5000x128 x0 shapeCasts_S5000x128_S5000x128) (ix2 r k) * (shapeCast S128x128 x1 shapeCasts_S128x128_S128x128) (ix2 k q) = _
  rw [shapeCast_self, shapeCast_self]

/-- Where the windows sit at point t: the input and output blocks start at row block t, column block 0; the matrix
    window is the whole matrix. -/
theorem placement : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some point's. -/
theorem placement_onto : ∀ (q0 : Fin 10), ∃ t : Fin cfg1.N, win1_2.index t = ![q0.val, 0] :=
  (by decide +kernel : ∀ (q0 : Fin 10), ∃ t : Fin grid1.N, win1_2.index t = ![q0.val, 0])

/-- What point t writes back is block t of the whole product. -/
theorem flushed_eq (c : Dev nD) (t : Fin cfg1.N) :
    (dat1 V c).flushed 2 t = ((cfg1.win 2).blk t).view.read (Elt Ideal) (Cert.Spec.linear (F := Ideal) (V c main_v0) (V c main_v32)) := by
  show (cfg1.win 2).cut (grid1.coords t) ((dat1 V c).after 2 t) = _
  rw [after1_2]
  unfold out1_2
  rw [View.canon_unit_zero origin]
  simp only [View.ld_unit_zero (S := S5000x128) origin, View.ld_unit_zero (S := S128x128) origin]
  obtain ⟨e0, e1, e2, e3, e4, e5⟩ := placement t
  funext j
  obtain ⟨r, q, rfl⟩ : ∃ (r : Fin 5000) (q : Fin 128), j = ix2 r q := ⟨j 0, j 1, eq_ix2 j⟩
  have hr : r.val < 5000 := r.isLt
  have hemb : ((cfg1.win 2).blk t).view.emb (ix2 r q) = ix2 (⟨win1_2.index t (0 : Fin 2) * 5000 + 1 * r.val, by omega⟩ : Fin 50000) q := by
    funext a; apply Fin.ext
    match a with
    | ⟨0, _⟩ => rfl
    | ⟨1, _⟩ => show win1_2.index t (1 : Fin 2) * 128 + 1 * q.val = q.val; omega
  show k1_pay1 (iblk1 V c 0 t) (iblk1 V c 1 t) (ix2 r q) = Cert.Spec.linear (F := Ideal) (V c main_v0) (V c main_v32) (((cfg1.win 2).blk t).view.emb (ix2 r q))
  rw [hemb, Cert.Spec.linear_apply]
  refine (stored_apply (iblk1 V c 0 t) (iblk1 V c 1 t) r q).trans ?_
  refine Finset.sum_congr rfl fun k _ => ?_
  have h0 : ((cfg1.win 0).blk t).view.emb (ix2 r k) = ix2 (⟨win1_2.index t (0 : Fin 2) * 5000 + 1 * r.val, by omega⟩ : Fin 50000) k := by
    funext a; apply Fin.ext
    match a with
    | ⟨0, _⟩ => show win1_0.index t (0 : Fin 2) * 5000 + 1 * r.val = win1_2.index t (0 : Fin 2) * 5000 + 1 * r.val; omega
    | ⟨1, _⟩ => show win1_0.index t (1 : Fin 2) * 128 + 1 * k.val = k.val; omega
  have h1 : ((cfg1.win 1).blk t).view.emb (ix2 k q) = ix2 k q := by
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  exact congrArg₂ (· * ·) (congrArg (V c main_v0 : FVec Ideal S50000x128 .f32) h0) (congrArg (V c main_v32 : FVec Ideal S128x128 .f32) h1)

/-- An index of the output array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v33).slice (win1_2.rect t)).set ↔ _
  rw [View.set_slice_whole, Rect.mem_set_unit]
  exact Iff.rfl

/-- The ten blocks cover the array: row i lies in the block of point i / 5000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := placement_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array when the region ends: the product of the input array and the matrix as the region found them. -/
theorem final (c : Dev nD) : (dat1 V c).arrAt 2 cfg1.N = Cert.Spec.linear (F := Ideal) (V c main_v0) (V c main_v32) :=
  (dat1 V c).arrAt_eq_of_cover 2 _ (fun t _ => flushed_eq V c t) covered

end Cert.KernelIdeal.Linear1

end
-- ==== Proof.Activation2.lean ====
/-
  The bias-and-positive-part kernel launched as region 2: what its output array holds when the region ends.

  The grid has ten points. Point t takes rows 5000 t … 5000 t + 4999 of the 50000 x 128 input and the whole bias
  row, and writes back, at the same rows of the output, the larger of input + bias and zero, entry by entry (the
  bias row added to every row of the block). So every block is the corresponding rows of the same entrywise
  function of the whole arrays, and the ten blocks cover all rows.
-/
import proofs.«102854_j58385785422144_1_alg».proof.Proof.Gen.KernelIdeal.Frame
import proofs.«102854_j58385785422144_1_alg».proof.Proof.SpecRead
import Idealize.ShloMosaic.Lib.Pipeline.Value
import Idealize.ShloMosaic.Lib.ValueIdx
import Idealize.ShloMosaic.Lib.ValueLayout

set_option maxRecDepth 16384

noncomputable section

namespace Cert.KernelIdeal.Activation2

open Cert.KernelIdeal Cert.KernelIdeal.Gen Idealize.ShloMosaic Idealize.ShloMosaic.TcCoe Idealize.SL.Sem
open Idealize.ShloMosaic.ValueIdx Idealize.ShloMosaic.MatmulRead
open Idealize.ShloMosaic.Pipeline (Dat)
open scoped BigOperators

variable (V : (c : Dev nD) → (b : Ref sig .tc) → Buf (Elt Ideal) ((c : Thread nD τ).loc b))

theorem origin : (![0, 0] : Fin 2 → Nat) = fun _ => 0 := funext fun a => by fin_cases a <;> rfl
theorem origin1 : (![0] : Fin 1 → Nat) = fun _ => 0 := funext fun a => by fin_cases a; rfl

/-- Entry (r, q) of what the body stores: the larger of input(r, q) + bias(q) and zero. -/
theorem stored_apply (x0 : Vec Ideal S5000x128 .f32) (x1 : Vec Ideal S128 .f32) (r : Fin 5000) (q : Fin 128) :
    k2_pay1 x0 x1 (ix2 r q) = max (x0 (ix2 r q) + x1 (ix1 q)) (Ideal.ofBits .f32 0x00000000#32) := by
  unfold k2_pay1
  refine congrArg₂ max (congrArg₂ (· + ·) ?_ ?_) rfl
  · exact congrFun (shapeCast_self x0 shapeCasts_S5000x128_S5000x128) (ix2 r q)
  · refine (broadcastTo_1b_ab_apply _ broadcasts_S1x128_S5000x128 r q).trans ?_
    refine (shapeCast_a_1a_apply _ shapeCasts_S128_S1x128 (0 : Fin 1) q).trans ?_
    exact congrFun (shapeCast_self x1 shapeCasts_S128_S128) (ix1 q)

/-- Where the windows sit at point t: the input and output blocks start at row block t, column block 0; the bias
    window is the whole row. -/
theorem placement : ∀ t : Fin cfg2.N, win2_0.index t (0 : Fin 2) = win2_2.index t (0 : Fin 2)
    ∧ win2_0.index t (1 : Fin 2) = 0
    ∧ win2_1.index t (0 : Fin 1) = 0
    ∧ win2_2.index t (1 : Fin 2) = 0
    ∧ win2_2.index t (0 : Fin 2) ≤ 9 :=
  (by decide +kernel : ∀ t : Fin grid2.N, _)

/-- Every row block is some point's. -/
theorem placement_onto : ∀ (q0 : Fin 10), ∃ t : Fin cfg2.N, win2_2.index t = ![q0.val, 0] :=
  (by decide +kernel : ∀ (q0 : Fin 10), ∃ t : Fin grid2.N, win2_2.index t = ![q0.val, 0])

/-- What point t writes back is block t of the whole entrywise result. -/
theorem flushed_eq (c : Dev nD) (t : Fin cfg2.N) :
    (dat2 V c).flushed 2 t = ((cfg2.win 2).blk t).view.read (Elt Ideal) (Cert.Spec.activate (F := Ideal) (V c main_v46) (V c main_v48)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128) origin1]
  obtain ⟨e0, e1, e2, e3, e4⟩ := placement t
  funext j
  obtain ⟨r, q, rfl⟩ : ∃ (r : Fin 5000) (q : Fin 128), j = ix2 r q := ⟨j 0, j 1, eq_ix2 j⟩
  have hr : r.val < 5000 := r.isLt
  have hemb : ((cfg2.win 2).blk t).view.emb (ix2 r q) = ix2 (⟨win2_2.index t (0 : Fin 2) * 5000 + 1 * r.val, by omega⟩ : Fin 50000) q := by
    funext a; apply Fin.ext
    match a with
    | ⟨0, _⟩ => rfl
    | ⟨1, _⟩ => show win2_2.index t (1 : Fin 2) * 128 + 1 * q.val = q.val; omega
  show k2_pay1 (iblk2 V c 0 t) (iblk2 V c 1 t) (ix2 r q) = Cert.Spec.activate (F := Ideal) (V c main_v46) (V c main_v48) (((cfg2.win 2).blk t).view.emb (ix2 r q))
  rw [hemb, Cert.Spec.activate_apply]
  refine (stored_apply (iblk2 V c 0 t) (iblk2 V c 1 t) r q).trans ?_
  refine congrArg₂ max (congrArg₂ (· + ·) ?_ ?_) rfl
  · show V c main_v46 (((cfg2.win 0).blk t).view.emb (ix2 r q)) = _
    have h0 : ((cfg2.win 0).blk t).view.emb (ix2 r q) = ix2 (⟨win2_2.index t (0 : Fin 2) * 5000 + 1 * r.val, by omega⟩ : Fin 50000) q := by
      funext a; apply Fin.ext
      match a with
      | ⟨0, _⟩ => show win2_0.index t (0 : Fin 2) * 5000 + 1 * r.val = win2_2.index t (0 : Fin 2) * 5000 + 1 * r.val; omega
      | ⟨1, _⟩ => show win2_0.index t (1 : Fin 2) * 128 + 1 * q.val = q.val; omega
    rw [h0]
  · show V c main_v48 (((cfg2.win 1).blk t).view.emb (ix1 q)) = _
    have h1 : ((cfg2.win 1).blk t).view.emb (ix1 q) = ix1 q := by
      funext a; apply Fin.ext
      match a with
      | ⟨0, _⟩ => show win2_1.index t (0 : Fin 1) * 128 + 1 * q.val = q.val; omega
    rw [h1]

/-- An index of the output array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v49).slice (win2_2.rect t)).set ↔ _
  rw [View.set_slice_whole, Rect.mem_set_unit]
  exact Iff.rfl

/-- The ten blocks cover the array: row i lies in the block of point i / 5000. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := placement_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array when the region ends: bias and positive part of the input array as the region found it. -/
theorem final (c : Dev nD) : (dat2 V c).arrAt 2 cfg2.N = Cert.Spec.activate (F := Ideal) (V c main_v46) (V c main_v48) :=
  (dat2 V c).arrAt_eq_of_cover 2 _ (fun t _ => flushed_eq V c t) covered

end Cert.KernelIdeal.Activation2

end
-- ==== Proof.Layer1.lean ====
/-
  The first layer of the run, stage by stage.

  The matrix-product region leaves the product of its input array and the layer's matrix. The host operations that
  follow send each node's row of that product along the edges, scaled by the edges' weights, and add up what
  arrives at each node; they also cut the layer's bias row out of the stack. The last region adds the bias and
  keeps the positive part. Each stage's result is stated as a function of the buffers the stage reads, at the
  contents they have at the boundary where the stage starts.
-/
import proofs.«102854_j58385785422144_1_alg».proof.Proof.Prologue
import proofs.«102854_j58385785422144_1_alg».proof.Proof.HostStagesB
import proofs.«102854_j58385785422144_1_alg».proof.Proof.Linear1
import proofs.«102854_j58385785422144_1_alg».proof.Proof.Activation2
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo (after_cons after_nil)

variable (m : (ℓ : Loc nD τ sig) → Buf (Elt Ideal) ℓ) (ρ : Dev nD → PrngReg)

/-- The matrix-product region's output: its input array times the layer's matrix, as the region found them. -/
theorem product1 (c : Dev nD) :
    W5 m ρ c (Proc.devRef .tc main_v33) = Cert.Spec.linear (F := Ideal) (W4 m ρ c (Proc.devRef .tc main_v0)) (W4 m ρ c (Proc.devRef .tc main_v32)) :=
  (W5_arr m ρ c 2).trans (Linear1.final (V4 m ρ) c)

/-- Message passing over the product. -/
theorem gathered1 (c : Dev nD) :
    W6 m ρ c (Proc.devRef .tc main_v46) = Cert.Spec.aggregate (F := Ideal) (m ((c : Thread nD τ).loc main_arg1)) (W5 m ρ c (Proc.devRef .tc main_v33)) :=
  (HostStage.gathered1 (W5 m ρ c)).trans (by
    simp only [(sources_later m ρ c).1, (destinations_later m ρ c).1, (weights_later m ρ c).1, Cert.Spec.aggregate])

/-- The layer's bias row, cut out of the stack. -/
theorem biasRow1 (c : Dev nD) :
    W6 m ρ c (Proc.devRef .tc main_v48) = Cert.Spec.bias0 (F := Ideal) (m ((c : Thread nD τ).loc main_arg6)) :=
  (HostStage.biasRow1 (W5 m ρ c)).trans (congrArg (Cert.Spec.bias0 (F := Ideal)) (biases_later m ρ c).1)

/-- The last region's output: bias and positive part of what message passing left. -/
theorem activated1 (c : Dev nD) :
    W7 m ρ c (Proc.devRef .tc main_v49) = Cert.Spec.activate (F := Ideal) (W6 m ρ c (Proc.devRef .tc main_v46)) (W6 m ρ c (Proc.devRef .tc main_v48)) :=
  (W7_arr m ρ c 2).trans (Activation2.final (V6 m ρ) c)

end Cert.KernelIdeal.Fold

end
-- ==== Proof.Linear3.lean ====
/-
  The matrix-product kernel launched as region 3: what its output array holds when the region ends.

  The grid has ten points. Point t takes rows 5000 t … 5000 t + 4999 of the 50000 x 128 input, the whole 128 x 128
  matrix, and writes the block's product back to the same rows of the output. Entry (r, q) of a block's product is
  the sum over k of input(5000 t + r, k) times matrix(k, q) — the change of float format before the product is the
  identity on the extended reals, and the product starts from a zero block — so every block is the corresponding
  rows of the one product of the whole arrays. The ten blocks cover all 50000 rows, hence the output array is
  that product.
-/
import proofs.«102854_j58385785422144_1_alg».proof.Proof.Gen.KernelIdeal.Frame
import proofs.«102854_j58385785422144_1_alg».proof.Proof.SpecRead
import Idealize.ShloMosaic.Lib.Pipeline.Value
import Idealize.ShloMosaic.Lib.ValueIdx
import Idealize.ShloMosaic.Lib.ValueLayout

set_option maxRecDepth 16384

noncomputable section

namespace Cert.KernelIdeal.Linear3

open Cert.KernelIdeal Cert.KernelIdeal.Gen Idealize.ShloMosaic Idealize.ShloMosaic.TcCoe Idealize.SL.Sem
open Idealize.ShloMosaic.ValueIdx Idealize.ShloMosaic.MatmulRead
open Idealize.ShloMosaic.Pipeline (Dat)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- Entry (r, q) of what the body stores: row r of the input block against column q of the matrix. -/
theorem stored_apply (x0 : Vec Ideal S5000x128 .f32) (x1 : Vec Ideal S128x128 .f32) (r : Fin 5000) (q : Fin 128) :
    k3_pay1 x0 x1 (ix2 r q) = ∑ k : Fin 128, x0 (ix2 r k) * x1 (ix2 k q) := by
  unfold k3_pay1
  refine (matmul_zero_ix2 (D := dot_S5000x128_S128x128_S5000x128_1_0_0_1_n_n) ⟨rfl, rfl, rfl, rfl, rfl, rfl⟩ rfl rfl none _ _ r q).trans ?_
  refine Finset.sum_congr rfl fun k _ => ?_
  show (shapeCast S5000x128 x0 shapeCasts_S5000x128_S5000x128) (ix2 r k) * (shapeCast S128x128 x1 shapeCasts_S128x128_S128x128) (ix2 k q) = _
  rw [shapeCast_self, shapeCast_self]

/-- Where the windows sit at point t: the input and output blocks start at row block t, column block 0; the matrix
    window is the whole matrix. -/
theorem placement : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every row block is some point's. -/
theorem placement_onto : ∀ (q0 : Fin 10), ∃ t : Fin cfg3.N, win3_2.index t = ![q0.val, 0] :=
  (by decide +kernel : ∀ (q0 : Fin 10), ∃ t : Fin grid3.N, win3_2.index t = ![q0.val, 0])

/-- What point t writes back is block t of the whole product. -/
theorem flushed_eq (c : Dev nD) (t : Fin cfg3.N) :
    (dat3 V c).flushed 2 t = ((cfg3.win 2).blk t).view.read (Elt Ideal) (Cert.Spec.linear (F := Ideal) (V c main_v49) (V c main_v51)) := by
  show (cfg3.win 2).cut (grid3.coords t) ((dat3 V c).after 2 t) = _
  rw [after3_2]
  unfold out3_2
  rw [View.canon_unit_zero origin]
  simp only [View.ld_unit_zero (S := S5000x128) origin, View.ld_unit_zero (S := S128x128) origin]
  obtain ⟨e0, e1, e2, e3, e4, e5⟩ := placement t
  funext j
  obtain ⟨r, q, rfl⟩ : ∃ (r : Fin 5000) (q : Fin 128), j = ix2 r q := ⟨j 0, j 1, eq_ix2 j⟩
  have hr : r.val < 5000 := r.isLt
  have hemb : ((cfg3.win 2).blk t).view.emb (ix2 r q) = ix2 (⟨win3_2.index t (0 : Fin 2) * 5000 + 1 * r.val, by omega⟩ : Fin 50000) q := by
    funext a; apply Fin.ext
    match a with
    | ⟨0, _⟩ => rfl
    | ⟨1, _⟩ => show win3_2.index t (1 : Fin 2) * 128 + 1 * q.val = q.val; omega
  show k3_pay1 (iblk3 V c 0 t) (iblk3 V c 1 t) (ix2 r q) = Cert.Spec.linear (F := Ideal) (V c main_v49) (V c main_v51) (((cfg3.win 2).blk t).view.emb (ix2 r q))
  rw [hemb, Cert.Spec.linear_apply]
  refine (stored_apply (iblk3 V c 0 t) (iblk3 V c 1 t) r q).trans ?_
  refine Finset.sum_congr rfl fun k _ => ?_
  have h0 : ((cfg3.win 0).blk t).view.emb (ix2 r k) = ix2 (⟨win3_2.index t (0 : Fin 2) * 5000 + 1 * r.val, by omega⟩ : Fin 50000) k := by
    funext a; apply Fin.ext
    match a with
    | ⟨0, _⟩ => show win3_0.index t (0 : Fin 2) * 5000 + 1 * r.val = win3_2.index t (0 : Fin 2) * 5000 + 1 * r.val; omega
    | ⟨1, _⟩ => show win3_0.index t (1 : Fin 2) * 128 + 1 * k.val = k.val; omega
  have h1 : ((cfg3.win 1).blk t).view.emb (ix2 k q) = ix2 k q := by
    funext a; apply Fin.ext
    match a with
    | ⟨0, _⟩ => show win3_1.index t (0 : Fin 2) * 128 + 1 * k.val = k.val; omega
    | ⟨1, _⟩ => show win3_1.index t (1 : Fin 2) * 128 + 1 * q.val = q.val; omega
  exact congrArg₂ (· * ·) (congrArg (V c main_v49 : FVec Ideal S50000x128 .f32) h0) (congrArg (V c main_v51 : FVec Ideal S128x128 .f32) h1)

/-- An index of the output array is in point t's block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v52).slice (win3_2.rect t)).set ↔ _
  rw [View.set_slice_whole, Rect.mem_set_unit]
  exact Iff.rfl

/-- The ten blocks cover the array: row i lies in the block of point i / 5000. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := placement_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array when the region ends: the product of the input array and the matrix as the region found them. -/
theorem final (c : Dev nD) : (dat3 V c).arrAt 2 cfg3.N = Cert.Spec.linear (F := Ideal) (V c main_v49) (V c main_v51) :=
  (dat3 V c).arrAt_eq_of_cover 2 _ (fun t _ => flushed_eq V c t) covered

end Cert.KernelIdeal.Linear3

end
-- ==== Proof.Activation4.lean ====
/-
  The bias-and-positive-part kernel launched as region 4: what its output array holds when the region ends.

  The grid has ten points. Point t takes rows 5000 t … 5000 t + 4999 of the 50000 x 128 input and the whole bias
  row, and writes back, at the same rows of the output, the larger of input + bias and zero, entry by entry (the
  bias row added to every row of the block). So every block is the corresponding rows of the same entrywise
  function of the whole arrays, and the ten blocks cover all rows.
-/
import proofs.«102854_j58385785422144_1_alg».proof.Proof.Gen.KernelIdeal.Frame
import proofs.«102854_j58385785422144_1_alg».proof.Proof.SpecRead
import Idealize.ShloMosaic.Lib.Pipeline.Value
import Idealize.ShloMosaic.Lib.ValueIdx
import Idealize.ShloMosaic.Lib.ValueLayout

set_option maxRecDepth 16384

noncomputable section

namespace Cert.KernelIdeal.Activation4

open Cert.KernelIdeal Cert.KernelIdeal.Gen Idealize.ShloMosaic Idealize.ShloMosaic.TcCoe Idealize.SL.Sem
open Idealize.ShloMosaic.ValueIdx Idealize.ShloMosaic.MatmulRead
open Idealize.ShloMosaic.Pipeline (Dat)
open scoped BigOperators

variable (V : (c : Dev nD) → (b : Ref sig .tc) → Buf (Elt Ideal) ((c : Thread nD τ).loc b))

theorem origin : (![0, 0] : Fin 2 → Nat) = fun _ => 0 := funext fun a => by fin_cases a <;> rfl
theorem origin1 : (![0] : Fin 1 → Nat) = fun _ => 0 := funext fun a => by fin_cases a; rfl

/-- Entry (r, q) of what the body stores: the larger of input(r, q) + bias(q) and zero. -/
theorem stored_apply (x0 : Vec Ideal S5000x128 .f32) (x1 : Vec Ideal S128 .f32) (r : Fin 5000) (q : Fin 128) :
    k4_pay1 x0 x1 (ix2 r q) = max (x0 (ix2 r q) + x1 (ix1 q)) (Ideal.ofBits .f32 0x00000000#32) := by
  unfold k4_pay1
  refine congrArg₂ max (congrArg₂ (· + ·) ?_ ?_) rfl
  · exact congrFun (shapeCast_self x0 shapeCasts_S5000x128_S5000x128) (ix2 r q)
  · refine (broadcastTo_1b_ab_apply _ broadcasts_S1x128_S5000x128 r q).trans ?_
    refine (shapeCast_a_1a_apply _ shapeCasts_S128_S1x128 (0 : Fin 1) q).trans ?_
    exact congrFun (shapeCast_self x1 shapeCasts_S128_S128) (ix1 q)

/-- Where the windows sit at point t: the input and output blocks start at row block t, column block 0; the bias
    window is the whole row. -/
theorem placement : ∀ t : Fin cfg4.N, win4_0.index t (0 : Fin 2) = win4_2.index t (0 : Fin 2)
    ∧ win4_0.index t (1 : Fin 2) = 0
    ∧ win4_1.index t (0 : Fin 1) = 0
    ∧ win4_2.index t (1 : Fin 2) = 0
    ∧ win4_2.index t (0 : Fin 2) ≤ 9 :=
  (by decide +kernel : ∀ t : Fin grid4.N, _)

/-- Every row block is some point's. -/
theorem placement_onto : ∀ (q0 : Fin 10), ∃ t : Fin cfg4.N, win4_2.index t = ![q0.val, 0] :=
  (by decide +kernel : ∀ (q0 : Fin 10), ∃ t : Fin grid4.N, win4_2.index t = ![q0.val, 0])

/-- What point t writes back is block t of the whole entrywise result. -/
theorem flushed_eq (c : Dev nD) (t : Fin cfg4.N) :
    (dat4 V c).flushed 2 t = ((cfg4.win 2).blk t).view.read (Elt Ideal) (Cert.Spec.activate (F := Ideal) (V c main_v65) (V c main_v67)) := by
  show (cfg4.win 2).cut (grid4.coords t) ((dat4 V c).after 2 t) = _
  rw [after4_2]
  unfold out4_2
  rw [View.canon_unit_zero origin]
  simp only [View.ld_unit_zero (S := S5000x128) origin, View.ld_unit_zero (S := S128) origin1]
  obtain ⟨e0, e1, e2, e3, e4⟩ := placement t
  funext j
  obtain ⟨r, q, rfl⟩ : ∃ (r : Fin 5000) (q : Fin 128), j = ix2 r q := ⟨j 0, j 1, eq_ix2 j⟩
  have hr : r.val < 5000 := r.isLt
  have hemb : ((cfg4.win 2).blk t).view.emb (ix2 r q) = ix2 (⟨win4_2.index t (0 : Fin 2) * 5000 + 1 * r.val, by omega⟩ : Fin 50000) q := by
    funext a; apply Fin.ext
    match a with
    | ⟨0, _⟩ => rfl
    | ⟨1, _⟩ => show win4_2.index t (1 : Fin 2) * 128 + 1 * q.val = q.val; omega
  show k4_pay1 (iblk4 V c 0 t) (iblk4 V c 1 t) (ix2 r q) = Cert.Spec.activate (F := Ideal) (V c main_v65) (V c main_v67) (((cfg4.win 2).blk t).view.emb (ix2 r q))
  rw [hemb, Cert.Spec.activate_apply]
  refine (stored_apply (iblk4 V c 0 t) (iblk4 V c 1 t) r q).trans ?_
  refine congrArg₂ max (congrArg₂ (· + ·) ?_ ?_) rfl
  · show V c main_v65 (((cfg4.win 0).blk t).view.emb (ix2 r q)) = _
    have h0 : ((cfg4.win 0).blk t).view.emb (ix2 r q) = ix2 (⟨win4_2.index t (0 : Fin 2) * 5000 + 1 * r.val, by omega⟩ : Fin 50000) q := by
      funext a; apply Fin.ext
      match a with
      | ⟨0, _⟩ => show win4_0.index t (0 : Fin 2) * 5000 + 1 * r.val = win4_2.index t (0 : Fin 2) * 5000 + 1 * r.val; omega
      | ⟨1, _⟩ => show win4_0.index t (1 : Fin 2) * 128 + 1 * q.val = q.val; omega
    rw [h0]
  · show V c main_v67 (((cfg4.win 1).blk t).view.emb (ix1 q)) = _
    have h1 : ((cfg4.win 1).blk t).view.emb (ix1 q) = ix1 q := by
      funext a; apply Fin.ext
      match a with
      | ⟨0, _⟩ => show win4_1.index t (0 : Fin 1) * 128 + 1 * q.val = q.val; omega
    rw [h1]

/-- An index of the output array is in point t's block iff each coordinate is in the block's range on its axis. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v68).slice (win4_2.rect t)).set ↔ _
  rw [View.set_slice_whole, Rect.mem_set_unit]
  exact Iff.rfl

/-- The ten blocks cover the array: row i lies in the block of point i / 5000. -/
theorem covered (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := placement_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The output array when the region ends: bias and positive part of the input array as the region found it. -/
theorem final (c : Dev nD) : (dat4 V c).arrAt 2 cfg4.N = Cert.Spec.activate (F := Ideal) (V c main_v65) (V c main_v67) :=
  (dat4 V c).arrAt_eq_of_cover 2 _ (fun t _ => flushed_eq V c t) covered

end Cert.KernelIdeal.Activation4

end
-- ==== Proof.Layer2.lean ====
/-
  The second layer of the run, stage by stage.

  A short stretch of host operations cuts the layer's weight matrix out of the stack and leaves the previous
  layer's output alone. Then the matrix-product region leaves the product of its input array and the layer's matrix. The host operations that
  follow send each node's row of that product along the edges, scaled by the edges' weights, and add up what
  arrives at each node; they also cut the layer's bias row out of the stack. The last region adds the bias and
  keeps the positive part. Each stage's result is stated as a function of the buffers the stage reads, at the
  contents they have at the boundary where the stage starts.
-/
import proofs.«102854_j58385785422144_1_alg».proof.Proof.Prologue
import proofs.«102854_j58385785422144_1_alg».proof.Proof.HostStagesB
import proofs.«102854_j58385785422144_1_alg».proof.Proof.Linear3
import proofs.«102854_j58385785422144_1_alg».proof.Proof.Activation4
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo (after_cons after_nil)

variable (m : (ℓ : Loc nD τ sig) → Buf (Elt Ideal) ℓ) (ρ : Dev nD → PrngReg)

/-- The layer's weight matrix, cut out of the stack. -/
theorem matrix2 (c : Dev nD) :
    W8 m ρ c (Proc.devRef .tc main_v51) = Cert.Spec.weight1 (F := Ideal) (m ((c : Thread nD τ).loc main_arg5)) :=
  (HostStage.matrix2 (W7 m ρ c)).trans (congrArg (Cert.Spec.weight1 (F := Ideal)) (stack_later m ρ c).2.1)

/-- The previous layer's output is untouched by that stretch. -/
theorem input2 (c : Dev nD) :
    W8 m ρ c (Proc.devRef .tc main_v49) = W7 m ρ c (Proc.devRef .tc main_v49) :=
  across3 m ρ c main_v49 (by decide)

/-- The matrix-product region's output: its input array times the layer's matrix, as the region found them. -/
theorem product2 (c : Dev nD) :
    W9 m ρ c (Proc.devRef .tc main_v52) = Cert.Spec.linear (F := Ideal) (W8 m ρ c (Proc.devRef .tc main_v49)) (W8 m ρ c (Proc.devRef .tc main_v51)) :=
  (W9_arr m ρ c 2).trans (Linear3.final (V8 m ρ) c)

/-- Message passing over the product. -/
theorem gathered2 (c : Dev nD) :
    W10 m ρ c (Proc.devRef .tc main_v65) = Cert.Spec.aggregate (F := Ideal) (m ((c : Thread nD τ).loc main_arg1)) (W9 m ρ c (Proc.devRef .tc main_v52)) :=
  (HostStage.gathered2 (W9 m ρ c)).trans (by
    simp only [(sources_later m ρ c).2.2.1, (destinations_later m ρ c).2.2.1, (weights_later m ρ c).2.2.1, Cert.Spec.aggregate])

/-- The layer's bias row, cut out of the stack. -/
theorem biasRow2 (c : Dev nD) :
    W10 m ρ c (Proc.devRef .tc main_v67) = Cert.Spec.bias1 (F := Ideal) (m ((c : Thread nD τ).loc main_arg6)) :=
  (HostStage.biasRow2 (W9 m ρ c)).trans (congrArg (Cert.Spec.bias1 (F := Ideal)) (biases_later m ρ c).2.2.1)

/-- The last region's output: bias and positive part of what message passing left. -/
theorem activated2 (c : Dev nD) :
    W11 m ρ c (Proc.devRef .tc main_v68) = Cert.Spec.activate (F := Ideal) (W10 m ρ c (Proc.devRef .tc main_v65)) (W10 m ρ c (Proc.devRef .tc main_v67)) :=
  (W11_arr m ρ c 2).trans (Activation4.final (V10 m ρ) c)

end Cert.KernelIdeal.Fold

end
-- ==== Proof.Linear5.lean ====
/-
  The matrix-product kernel launched as region 5: what its output array holds when the region ends.

  The grid has ten points. Point t takes rows 5000 t … 5000 t + 4999 of the 50000 x 128 input, the whole 128 x 128
  matrix, and writes the block's product back to the same rows of the output. Entry (r, q) of a block's product is
  the sum over k of input(5000 t + r, k) times matrix(k, q) — the change of float format before the product is the
  identity on the extended reals, and the product starts from a zero block — so every block is the corresponding
  rows of the one product of the whole arrays. The ten blocks cover all 50000 rows, hence the output array is
  that product.
-/
import proofs.«102854_j58385785422144_1_alg».proof.Proof.Gen.KernelIdeal.Frame
import proofs.«102854_j58385785422144_1_alg».proof.Proof.SpecRead
import Idealize.ShloMosaic.Lib.Pipeline.Value
import Idealize.ShloMosaic.Lib.ValueIdx
import Idealize.ShloMosaic.Lib.ValueLayout

set_option maxRecDepth 16384

noncomputable section

namespace Cert.KernelIdeal.Linear5

open Cert.KernelIdeal Cert.KernelIdeal.Gen Idealize.ShloMosaic Idealize.ShloMosaic.TcCoe Idealize.SL.Sem
open Idealize.ShloMosaic.ValueIdx Idealize.ShloMosaic.MatmulRead
open Idealize.ShloMosaic.Pipeline (Dat)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- Entry (r, q) of what the body stores: row r of the input block against column q of the matrix. -/
theorem stored_apply (x0 : Vec Ideal S5000x128 .f32) (x1 : Vec Ideal S128x128 .f32) (r : Fin 5000) (q : Fin 128) :
    k5_pay1 x0 x1 (ix2 r q) = ∑ k : Fin 128, x0 (ix2 r k) * x1 (ix2 k q) := by
  unfold k5_pay1
  refine (matmul_zero_ix2 (D := dot_S5000x128_S128x128_S5000x128_1_0_0_1_n_n) ⟨rfl, rfl, rfl, rfl, rfl, rfl⟩ rfl rfl none _ _ r q).trans ?_
  refine Finset.sum_congr rfl fun k _ => ?_
  show (shapeCast S5000x128 x0 shapeCasts_S5000x128_S5000x128) (ix2 r k) * (shapeCast S128x128 x1 shapeCasts_S128x128_S128x128) (ix2 k q) = _
  rw [shapeCast_self, shapeCast_self]

/-- Where the windows sit at point t: the input and output blocks start at row block t, column block 0; the matrix
    window is the whole matrix. -/
theorem placement : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0
    ∧ win5_2.index t (0 : Fin 2) ≤ 9 :=
  (by decide +kernel : ∀ t : Fin grid5.N, _)

/-- Every row block is some point's. -/
theorem placement_onto : ∀ (q0 : Fin 10), ∃ t : Fin cfg5.N, win5_2.index t = ![q0.val, 0] :=
  (by decide +kernel : ∀ (q0 : Fin 10), ∃ t : Fin grid5.N, win5_2.index t = ![q0.val, 0])

/-- What point t writes back is block t of the whole product. -/
theorem flushed_eq (c : Dev nD) (t : Fin cfg5.N) :
    (dat5 V c).flushed 2 t = ((cfg5.win 2).blk t).view.read (Elt Ideal) (Cert.Spec.linear (F := Ideal) (V c main_v68) (V c main_v70)) := by
  show (cfg5.win 2).cut (grid5.coords t) ((dat5 V c).after 2 t) = _
  rw [after5_2]
  unfold out5_2
  rw [View.canon_unit_zero origin]
  simp only [View.ld_unit_zero (S := S5000x128) origin, View.ld_unit_zero (S := S128x128) origin]
  obtain ⟨e0, e1, e2, e3, e4, e5⟩ := placement t
  funext j
  obtain ⟨r, q, rfl⟩ : ∃ (r : Fin 5000) (q : Fin 128), j = ix2 r q := ⟨j 0, j 1, eq_ix2 j⟩
  have hr : r.val < 5000 := r.isLt
  have hemb : ((cfg5.win 2).blk t).view.emb (ix2 r q) = ix2 (⟨win5_2.index t (0 : Fin 2) * 5000 + 1 * r.val, by omega⟩ : Fin 50000) q := by
    funext a; apply Fin.ext
    match a with
    | ⟨0, _⟩ => rfl
    | ⟨1, _⟩ => show win5_2.index t (1 : Fin 2) * 128 + 1 * q.val = q.val; omega
  show k5_pay1 (iblk5 V c 0 t) (iblk5 V c 1 t) (ix2 r q) = Cert.Spec.linear (F := Ideal) (V c main_v68) (V c main_v70) (((cfg5.win 2).blk t).view.emb (ix2 r q))
  rw [hemb, Cert.Spec.linear_apply]
  refine (stored_apply (iblk5 V c 0 t) (iblk5 V c 1 t) r q).trans ?_
  refine Finset.sum_congr rfl fun k _ => ?_
  have h0 : ((cfg5.win 0).blk t).view.emb (ix2 r k) = ix2 (⟨win5_2.index t (0 : Fin 2) * 5000 + 1 * r.val, by omega⟩ : Fin 50000) k := by
    funext a; apply Fin.ext
    match a with
    | ⟨0, _⟩ => show win5_0.index t (0 : Fin 2) * 5000 + 1 * r.val = win5_2.index t (0 : Fin 2) * 5000 + 1 * r.val; omega
    | ⟨1, _⟩ => show win5_0.index t (1 : Fin 2) * 128 + 1 * k.val = k.val; omega
  have h1 : ((cfg5.win 1).blk t).view.emb (ix2 k q) = ix2 k q := by
    funext a; apply Fin.ext
    match a with
    | ⟨0, _⟩ => show win5_1.index t (0 : Fin 2) * 128 + 1 * k.val = k.val; omega
    | ⟨1, _⟩ => show win5_1.index t (1 : Fin 2) * 128 + 1 * q.val = q.val; omega
  exact congrArg₂ (· * ·) (congrArg (V c main_v68 : FVec Ideal S50000x128 .f32) h0) (congrArg (V c main_v70 : FVec Ideal S128x128 .f32) h1)

/-- An index of the output array is in point t's block iff each coordinate is in the block's range on its axis. -/
theorem mem_blk (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v71).slice (win5_2.rect t)).set ↔ _
  rw [View.set_slice_whole, Rect.mem_set_unit]
  exact Iff.rfl

/-- The ten blocks cover the array: row i lies in the block of point i / 5000. -/
theorem covered (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := placement_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The output array when the region ends: the product of the input array and the matrix as the region found them. -/
theorem final (c : Dev nD) : (dat5 V c).arrAt 2 cfg5.N = Cert.Spec.linear (F := Ideal) (V c main_v68) (V c main_v70) :=
  (dat5 V c).arrAt_eq_of_cover 2 _ (fun t _ => flushed_eq V c t) covered

end Cert.KernelIdeal.Linear5

end
-- ==== Proof.Activation6.lean ====
/-
  The bias-and-positive-part kernel launched as region 6: what its output array holds when the region ends.

  The grid has ten points. Point t takes rows 5000 t … 5000 t + 4999 of the 50000 x 128 input and the whole bias
  row, and writes back, at the same rows of the output, the larger of input + bias and zero, entry by entry (the
  bias row added to every row of the block). So every block is the corresponding rows of the same entrywise
  function of the whole arrays, and the ten blocks cover all rows.
-/
import proofs.«102854_j58385785422144_1_alg».proof.Proof.Gen.KernelIdeal.Frame
import proofs.«102854_j58385785422144_1_alg».proof.Proof.SpecRead
import Idealize.ShloMosaic.Lib.Pipeline.Value
import Idealize.ShloMosaic.Lib.ValueIdx
import Idealize.ShloMosaic.Lib.ValueLayout

set_option maxRecDepth 16384

noncomputable section

namespace Cert.KernelIdeal.Activation6

open Cert.KernelIdeal Cert.KernelIdeal.Gen Idealize.ShloMosaic Idealize.ShloMosaic.TcCoe Idealize.SL.Sem
open Idealize.ShloMosaic.ValueIdx Idealize.ShloMosaic.MatmulRead
open Idealize.ShloMosaic.Pipeline (Dat)
open scoped BigOperators

variable (V : (c : Dev nD) → (b : Ref sig .tc) → Buf (Elt Ideal) ((c : Thread nD τ).loc b))

theorem origin : (![0, 0] : Fin 2 → Nat) = fun _ => 0 := funext fun a => by fin_cases a <;> rfl
theorem origin1 : (![0] : Fin 1 → Nat) = fun _ => 0 := funext fun a => by fin_cases a; rfl

/-- Entry (r, q) of what the body stores: the larger of input(r, q) + bias(q) and zero. -/
theorem stored_apply (x0 : Vec Ideal S5000x128 .f32) (x1 : Vec Ideal S128 .f32) (r : Fin 5000) (q : Fin 128) :
    k6_pay1 x0 x1 (ix2 r q) = max (x0 (ix2 r q) + x1 (ix1 q)) (Ideal.ofBits .f32 0x00000000#32) := by
  unfold k6_pay1
  refine congrArg₂ max (congrArg₂ (· + ·) ?_ ?_) rfl
  · exact congrFun (shapeCast_self x0 shapeCasts_S5000x128_S5000x128) (ix2 r q)
  · refine (broadcastTo_1b_ab_apply _ broadcasts_S1x128_S5000x128 r q).trans ?_
    refine (shapeCast_a_1a_apply _ shapeCasts_S128_S1x128 (0 : Fin 1) q).trans ?_
    exact congrFun (shapeCast_self x1 shapeCasts_S128_S128) (ix1 q)

/-- Where the windows sit at point t: the input and output blocks start at row block t, column block 0; the bias
    window is the whole row. -/
theorem placement : ∀ t : Fin cfg6.N, win6_0.index t (0 : Fin 2) = win6_2.index t (0 : Fin 2)
    ∧ win6_0.index t (1 : Fin 2) = 0
    ∧ win6_1.index t (0 : Fin 1) = 0
    ∧ win6_2.index t (1 : Fin 2) = 0
    ∧ win6_2.index t (0 : Fin 2) ≤ 9 :=
  (by decide +kernel : ∀ t : Fin grid6.N, _)

/-- Every row block is some point's. -/
theorem placement_onto : ∀ (q0 : Fin 10), ∃ t : Fin cfg6.N, win6_2.index t = ![q0.val, 0] :=
  (by decide +kernel : ∀ (q0 : Fin 10), ∃ t : Fin grid6.N, win6_2.index t = ![q0.val, 0])

/-- What point t writes back is block t of the whole entrywise result. -/
theorem flushed_eq (c : Dev nD) (t : Fin cfg6.N) :
    (dat6 V c).flushed 2 t = ((cfg6.win 2).blk t).view.read (Elt Ideal) (Cert.Spec.activate (F := Ideal) (V c main_v84) (V c main_v86)) := by
  show (cfg6.win 2).cut (grid6.coords t) ((dat6 V c).after 2 t) = _
  rw [after6_2]
  unfold out6_2
  rw [View.canon_unit_zero origin]
  simp only [View.ld_unit_zero (S := S5000x128) origin, View.ld_unit_zero (S := S128) origin1]
  obtain ⟨e0, e1, e2, e3, e4⟩ := placement t
  funext j
  obtain ⟨r, q, rfl⟩ : ∃ (r : Fin 5000) (q : Fin 128), j = ix2 r q := ⟨j 0, j 1, eq_ix2 j⟩
  have hr : r.val < 5000 := r.isLt
  have hemb : ((cfg6.win 2).blk t).view.emb (ix2 r q) = ix2 (⟨win6_2.index t (0 : Fin 2) * 5000 + 1 * r.val, by omega⟩ : Fin 50000) q := by
    funext a; apply Fin.ext
    match a with
    | ⟨0, _⟩ => rfl
    | ⟨1, _⟩ => show win6_2.index t (1 : Fin 2) * 128 + 1 * q.val = q.val; omega
  show k6_pay1 (iblk6 V c 0 t) (iblk6 V c 1 t) (ix2 r q) = Cert.Spec.activate (F := Ideal) (V c main_v84) (V c main_v86) (((cfg6.win 2).blk t).view.emb (ix2 r q))
  rw [hemb, Cert.Spec.activate_apply]
  refine (stored_apply (iblk6 V c 0 t) (iblk6 V c 1 t) r q).trans ?_
  refine congrArg₂ max (congrArg₂ (· + ·) ?_ ?_) rfl
  · show V c main_v84 (((cfg6.win 0).blk t).view.emb (ix2 r q)) = _
    have h0 : ((cfg6.win 0).blk t).view.emb (ix2 r q) = ix2 (⟨win6_2.index t (0 : Fin 2) * 5000 + 1 * r.val, by omega⟩ : Fin 50000) q := by
      funext a; apply Fin.ext
      match a with
      | ⟨0, _⟩ => show win6_0.index t (0 : Fin 2) * 5000 + 1 * r.val = win6_2.index t (0 : Fin 2) * 5000 + 1 * r.val; omega
      | ⟨1, _⟩ => show win6_0.index t (1 : Fin 2) * 128 + 1 * q.val = q.val; omega
    rw [h0]
  · show V c main_v86 (((cfg6.win 1).blk t).view.emb (ix1 q)) = _
    have h1 : ((cfg6.win 1).blk t).view.emb (ix1 q) = ix1 q := by
      funext a; apply Fin.ext
      match a with
      | ⟨0, _⟩ => show win6_1.index t (0 : Fin 1) * 128 + 1 * q.val = q.val; omega
    rw [h1]

/-- An index of the output array is in point t's block iff each coordinate is in the block's range on its axis. -/
theorem mem_blk (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v87).slice (win6_2.rect t)).set ↔ _
  rw [View.set_slice_whole, Rect.mem_set_unit]
  exact Iff.rfl

/-- The ten blocks cover the array: row i lies in the block of point i / 5000. -/
theorem covered (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  obtain ⟨t, ht⟩ := placement_onto ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- The output array when the region ends: bias and positive part of the input array as the region found it. -/
theorem final (c : Dev nD) : (dat6 V c).arrAt 2 cfg6.N = Cert.Spec.activate (F := Ideal) (V c main_v84) (V c main_v86) :=
  (dat6 V c).arrAt_eq_of_cover 2 _ (fun t _ => flushed_eq V c t) covered

end Cert.KernelIdeal.Activation6

end
-- ==== Proof.Layer3.lean ====
/-
  The third layer of the run, stage by stage.

  A short stretch of host operations cuts the layer's weight matrix out of the stack and leaves the previous
  layer's output alone. Then the matrix-product region leaves the product of its input array and the layer's matrix. The host operations that
  follow send each node's row of that product along the edges, scaled by the edges' weights, and add up what
  arrives at each node; they also cut the layer's bias row out of the stack. The last region adds the bias and
  keeps the positive part. Each stage's result is stated as a function of the buffers the stage reads, at the
  contents they have at the boundary where the stage starts.
-/
import proofs.«102854_j58385785422144_1_alg».proof.Proof.Prologue
import proofs.«102854_j58385785422144_1_alg».proof.Proof.HostStagesB
import proofs.«102854_j58385785422144_1_alg».proof.Proof.Linear5
import proofs.«102854_j58385785422144_1_alg».proof.Proof.Activation6
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo (after_cons after_nil)

variable (m : (ℓ : Loc nD τ sig) → Buf (Elt Ideal) ℓ) (ρ : Dev nD → PrngReg)

/-- The layer's weight matrix, cut out of the stack. -/
theorem matrix3 (c : Dev nD) :
    W12 m ρ c (Proc.devRef .tc main_v70) = Cert.Spec.weight2 (F := Ideal) (m ((c : Thread nD τ).loc main_arg5)) :=
  (HostStage.matrix3 (W11 m ρ c)).trans (congrArg (Cert.Spec.weight2 (F := Ideal)) (stack_later m ρ c).2.2.2.1)

/-- The previous layer's output is untouched by that stretch. -/
theorem input3 (c : Dev nD) :
    W12 m ρ c (Proc.devRef .tc main_v68) = W11 m ρ c (Proc.devRef .tc main_v68) :=
  across5 m ρ c main_v68 (by decide)

/-- The matrix-product region's output: its input array times the layer's matrix, as the region found them. -/
theorem product3 (c : Dev nD) :
    W13 m ρ c (Proc.devRef .tc main_v71) = Cert.Spec.linear (F := Ideal) (W12 m ρ c (Proc.devRef .tc main_v68)) (W12 m ρ c (Proc.devRef .tc main_v70)) :=
  (W13_arr m ρ c 2).trans (Linear5.final (V12 m ρ) c)

/-- Message passing over the product. -/
theorem gathered3 (c : Dev nD) :
    W14 m ρ c (Proc.devRef .tc main_v84) = Cert.Spec.aggregate (F := Ideal) (m ((c : Thread nD τ).loc main_arg1)) (W13 m ρ c (Proc.devRef .tc main_v71)) :=
  (HostStage.gathered3 (W13 m ρ c)).trans (by
    simp only [(sources_later m ρ c).2.2.2.2.1, (destinations_later m ρ c).2.2.2.2.1, (weights_later m ρ c).2.2.2.2.1, Cert.Spec.aggregate])

/-- The layer's bias row, cut out of the stack. -/
theorem biasRow3 (c : Dev nD) :
    W14 m ρ c (Proc.devRef .tc main_v86) = Cert.Spec.bias2 (F := Ideal) (m ((c : Thread nD τ).loc main_arg6)) :=
  (HostStage.biasRow3 (W13 m ρ c)).trans (congrArg (Cert.Spec.bias2 (F := Ideal)) (biases_later m ρ c).2.2.2.2.1)

/-- The last region's output: bias and positive part of what message passing left. -/
theorem activated3 (c : Dev nD) :
    W15 m ρ c (Proc.devRef .tc main_v87) = Cert.Spec.activate (F := Ideal) (W14 m ρ c (Proc.devRef .tc main_v84)) (W14 m ρ c (Proc.devRef .tc main_v86)) :=
  (W15_arr m ρ c 2).trans (Activation6.final (V14 m ρ) c)

end Cert.KernelIdeal.Fold

end
-- ==== Proof.Epilogue.lean ====
/-
  The end of the run: the read-out, and the whole run as the network of the launch contents.

  The last stretch of host operations sums the last layer's rows per graph, divides by the graphs' sizes and applies
  the final column and constant; it reads the last region's output and three argument arrays. Substituting each
  stage's result into the next, from the read-out back to the encoder, the result buffer holds the network of the
  nine argument arrays' launch contents.
-/
import proofs.«102854_j58385785422144_1_alg».proof.Proof.Layer1
import proofs.«102854_j58385785422144_1_alg».proof.Proof.Layer2
import proofs.«102854_j58385785422144_1_alg».proof.Proof.Layer3
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo (after_cons after_nil)

variable (m : (ℓ : Loc nD τ sig) → Buf (Elt Ideal) ℓ) (ρ : Dev nD → PrngReg)

/-- The read-out over the last layer's output. -/
theorem pooled (c : Dev nD) :
    W16 m ρ c (Proc.devRef .tc main_v103) = Cert.Spec.readout (F := Ideal) (m ((c : Thread nD τ).loc main_arg2)) (W15 m ρ c (Proc.devRef .tc main_v87)) (m ((c : Thread nD τ).loc main_arg7)) (m ((c : Thread nD τ).loc main_arg8)) :=
  (HostStage.pooled (W15 m ρ c)).trans (by
    simp only [(batch_later m ρ c).2.2.2.2.2, (column_later m ρ c).2.2.2.2.2, (constant_later m ρ c).2.2.2.2.2])

/-- The result buffer at the end of the run: the network of the launch contents of the nine argument arrays. -/
theorem result (c : Dev nD) :
    W16 m ρ c (Proc.devRef .tc main_v103) = Cert.Spec.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [pooled m ρ c, activated3 m ρ c, gathered3 m ρ c, biasRow3 m ρ c, product3 m ρ c, input3 m ρ c, matrix3 m ρ c,
    activated2 m ρ c, gathered2 m ρ c, biasRow2 m ρ c, product2 m ρ c, input2 m ρ c, matrix2 m ρ c,
    activated1 m ρ c, gathered1 m ρ c, biasRow1 m ρ c, product1 m ρ c, encoded_entry m ρ c, matrix_entry m ρ c]
  rfl

end Cert.KernelIdeal.Fold

end
-- ==== Proof.lean ====
/-
  A three-layer graph network on 50000 nodes and 800000 edges, computed two ways, gives one result on the
  extended reals.

  The kernel program runs seven kernels among stretches of host operations: an encoder `x W + b`, and per layer a
  matrix product and a bias-and-positive-part step; the gathering of rows along the edges, their scaling by the
  edge weights, the summation per destination node and the final read-out per graph are host operations, the same
  ones the reference uses. The reference is one line of host operations. Each kernel works on ten blocks of 5000
  rows; on the extended reals the change of float format in front of a product is the identity, a product into a
  zero block is the plain sum of products, and each block of a kernel's output is the corresponding rows of one
  whole-array function, so a region's output array is the reference's `dot_general`, `+ b` and `max(·, 0)` of the
  arrays the region reads. Following the buffer contents from the launch memory through the seven regions and the
  host stretches, the kernel program's result is `network` of the nine argument arrays; the reference's composed
  result term is `network` of its arguments by unfolding. No law of arithmetic beyond that reading is used, so the
  precondition on the inputs is never opened. The idealization rewrote nothing, so what it preserves is trivial.
-/
import proofs.«102854_j58385785422144_1_alg».proof.Defs
import proofs.«102854_j58385785422144_1_alg».proof.Proof.Gen.Kernel
import proofs.«102854_j58385785422144_1_alg».proof.Proof.Gen.Kernel.Skeleton
import proofs.«102854_j58385785422144_1_alg».proof.Proof.Gen.Kernel.Launch
import proofs.«102854_j58385785422144_1_alg».proof.Proof.Gen.Kernel.Points
import proofs.«102854_j58385785422144_1_alg».proof.Proof.Gen.Kernel.Frame
import proofs.«102854_j58385785422144_1_alg».proof.Proof.Gen.KernelIdeal
import proofs.«102854_j58385785422144_1_alg».proof.Proof.Gen.KernelIdeal.Skeleton
import proofs.«102854_j58385785422144_1_alg».proof.Proof.Gen.KernelIdeal.Launch
import proofs.«102854_j58385785422144_1_alg».proof.Proof.Gen.KernelIdeal.Points
import proofs.«102854_j58385785422144_1_alg».proof.Proof.Gen.KernelIdeal.Frame
import proofs.«102854_j58385785422144_1_alg».proof.Proof.Gen.ReferenceIdeal
import proofs.«102854_j58385785422144_1_alg».proof.Proof.Gen.Pre_finite_inputs
import proofs.«102854_j58385785422144_1_alg».proof.Proof.RefRun
import proofs.«102854_j58385785422144_1_alg».proof.Proof.RefNetwork
import proofs.«102854_j58385785422144_1_alg».proof.Proof.KernelRun
import proofs.«102854_j58385785422144_1_alg».proof.Proof.Epilogue
import Idealize.ShloMosaic.Adequacy
import Idealize.ShloMosaic.Init

noncomputable section

namespace Cert.Proof

open Idealize.ShloMosaic Idealize.SL.Sem

/-- The kernel program as printed terminates without a fault and leaves its arguments alone. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the network of the arguments. -/
theorem algebraic : Cert.algebraic_KernelIdeal_ReferenceIdeal := by
  intro m ρ m' ρ' _ hagree
  refine ⟨fun c => Cert.Spec.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.result m ρ c), (h c).2⟩) (Cert.KernelIdeal.NamedRun.run m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8⟩ := hagree c
    rw [Cert.Spec.reference_result m' c, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
